-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3 : Shape := ⟨3, ![8, 1024, 3]⟩
abbrev S8x16384x3 : Shape := ⟨3, ![8, 16384, 3]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S8x16384x3 : S_.BroadcastsInDim S8x16384x3 (![] : Fin 0 → Fin S8x16384x3.rank)
  reducesTo_S8x16384x3_S_d0_1_2 : S8x16384x3.ReducesTo [0, 1, 2] S_

variable [Facts]

def fn_part1 {F : FTy → Type} [FloatOps F] (main_v13 : IVec S_ 1) (main_v16 : IVec S8x16384x3 1) : IVec S_ 1 :=
  let main_c_5 : IVec S_ 1 := constantI S_ 1 1#1
  let main_v17 : IVec S_ 1 := (fun x v => Host.reduce IntOp.andi x v reducesTo_S8x16384x3_S_d0_1_2 h_S_) main_v16 main_c_5
  let main_v18 : IVec S_ 1 := andi main_v13 main_v17
  main_v18

def fn {F : FTy → Type} [FloatOps F] (main_arg0 : FVec F S8x1024x3 .f32) (main_arg1 : FVec F S8x16384x3 .f32) (main_arg2 : FVec F S8x1024x3 .f32) (main_arg3 : FVec F S8x16384x3 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S8x16384x3 .f32 := Host.absf main_arg1
  let main_cst_0 : FVec F S_ .f32 := constant S_ .f32 0x7F800000#32
  let main_v5 : FVec F S8x16384x3 .f32 := broadcastInDim S8x16384x3 ![] bcast_S_S8x16384x3 main_cst_0
  let main_v6 : IVec S8x16384x3 1 := cmpf .olt main_v4 main_v5
  let main_c_1 : IVec S_ 1 := constantI S_ 1 1#1
  let main_v7 : IVec S_ 1 := (fun x v => Host.reduce IntOp.andi x v reducesTo_S8x16384x3_S_d0_1_2 h_S_) main_v6 main_c_1
  let main_v8 : IVec S_ 1 := andi main_v3 main_v7
  let main_v9 : FVec F S8x1024x3 .f32 := Host.absf main_arg2
  let main_cst_2 : FVec F S_ .f32 := constant S_ .f32 0x7F800000#32
  let main_v10 : FVec F S8x1024x3 .f32 := broadcastInDim S8x1024x3 ![] bcast_S_S8x1024x3 main_cst_2
  let main_v11 : IVec S8x1024x3 1 := cmpf .olt main_v9 main_v10
  let main_c_3 : IVec S_ 1 := constantI S_ 1 1#1
  let main_v12 : IVec S_ 1 := (fun x v => Host.reduce IntOp.andi x v reducesTo_S8x1024x3_S_d0_1_2 h_S_) main_v11 main_c_3
  let main_v13 : IVec S_ 1 := andi main_v8 main_v12
  let main_v14 : FVec F S8x16384x3 .f32 := Host.absf main_arg3
  let main_cst_4 : FVec F S_ .f32 := constant S_ .f32 0x7F800000#32
  let main_v15 : FVec F S8x16384x3 .f32 := broadcastInDim S8x16384x3 ![] bcast_S_S8x16384x3 main_cst_4
  let main_v16 : IVec S8x16384x3 1 := cmpf .olt main_v14 main_v15
  fn_part1 (F := F) main_v13 main_v16
-- ==== Kernel.lean ====
abbrev S8x1024x3 : Shape := ⟨3, ![8, 1024, 3]⟩
abbrev S8x16384x3 : Shape := ⟨3, ![8, 16384, 3]⟩
abbrev S16x1024x3 : Shape := ⟨3, ![16, 1024, 3]⟩
abbrev S16x16384x3 : Shape := ⟨3, ![16, 16384, 3]⟩
abbrev S16x3x1024 : Shape := ⟨3, ![16, 3, 1024]⟩
abbrev S16x3x16384 : Shape := ⟨3, ![16, 3, 16384]⟩
abbrev S16x16384 : Shape := ⟨2, ![16, 16384]⟩
abbrev S16x3x256 : Shape := ⟨3, ![16, 3, 256]⟩
abbrev S16x256 : Shape := ⟨2, ![16, 256]⟩
abbrev S16x1024x256 : Shape := ⟨3, ![16, 1024, 256]⟩
abbrev S16x1x1024 : Shape := ⟨3, ![16, 1, 1024]⟩
abbrev S16x1024 : Shape := ⟨2, ![16, 1024]⟩
abbrev S16x1x256 : Shape := ⟨3, ![16, 1, 256]⟩
abbrev S16x1024x1 : Shape := ⟨3, ![16, 1024, 1]⟩
abbrev S_ : Shape := ⟨0, ![]⟩

abbrev nBuf : Space → Nat
  | .hbm => 13
  | .vmem => 6
  | .smem => 0
  | _ => 0

abbrev bufTy : (tb : Table) → Fin (tcTables nBuf tb) → BufTy
  | .hbm, ⟨0, _⟩ => ⟨S8x1024x3, .f32⟩
  | .hbm, ⟨1, _⟩ => ⟨S8x16384x3, .f32⟩
  | .hbm, ⟨2, _⟩ => ⟨S8x1024x3, .f32⟩
  | .hbm, ⟨3, _⟩ => ⟨S8x16384x3, .f32⟩
  | .hbm, ⟨4, _⟩ => ⟨S16x1024x3, .f32⟩
  | .hbm, ⟨5, _⟩ => ⟨S16x16384x3, .f32⟩
  | .hbm, ⟨6, _⟩ => ⟨S16x3x1024, .f32⟩
  | .hbm, ⟨7, _⟩ => ⟨S16x3x16384, .f32⟩
  | .hbm, ⟨8, _⟩ => ⟨S16x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S16x3x1024, .f32⟩
  | .local _ .vmem, ⟨1, _⟩ => ⟨S16x3x256, .f32⟩
  | .local _ .vmem, ⟨2, _⟩ => ⟨S16x3x256, .f32⟩
  | .local _ .vmem, ⟨3, _⟩ => ⟨S16x256, .f32⟩
  | .local _ .vmem, ⟨4, _⟩ => ⟨S16x256, .f32⟩
  | .local _ .vmem, ⟨5, _⟩ => ⟨S16x1024x256, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S8x1024x3_S8x1024x3_S16x1024x3_d0 : Shape.Concatenates [S8x1024x3, S8x1024x3] S16x1024x3 0
  concatenates_S8x16384x3_S8x16384x3_S16x16384x3_d0 : Shape.Concatenates [S8x16384x3, S8x16384x3] S16x16384x3 0
  transposes_S16x1024x3_S16x3x1024_0_2_1 : S16x1024x3.Transposes [0, 2, 1] S16x3x1024
  transposes_S16x16384x3_S16x3x16384_0_2_1 : S16x16384x3.Transposes [0, 2, 1] S16x3x16384
  inb_S16x3x1024_S16x3x1024_0_0_0 : ∀ a, (![0, 0, 0] : Fin 3 → Nat) a + S16x3x1024.size a ≤ S16x3x1024.size a
  h_S16x3x1024 : 0 < S16x3x1024.numel
  shapeCasts_S16x3x1024_S16x3x1024 : S16x3x1024.ShapeCasts S16x3x1024
  inb_S16x3x256_S16x3x256_0_0_0 : ∀ a, (![0, 0, 0] : Fin 3 → Nat) a + S16x3x256.size a ≤ S16x3x256.size a
  h_S16x3x256 : 0 < S16x3x256.numel
  shapeCasts_S16x3x256_S16x3x256 : S16x3x256.ShapeCasts S16x3x256
  inb_S16x1024x256_S16x1024x256_0_0_0 : ∀ a, (![0, 0, 0] : Fin 3 → Nat) a + S16x1024x256.size a ≤ S16x1024x256.size a
  h_S16x1024x256 : 0 < S16x1024x256.numel
  shapeCasts_S16x1024x256_S16x1024x256 : S16x1024x256.ShapeCasts S16x1024x256
  slices_S16x3x1024_o0_0_0_S16x1x1024 : S16x3x1024.Slices ![0, 0, 0] S16x1x1024
  shapeCasts_S16x1x1024_S16x1024 : S16x1x1024.ShapeCasts S16x1024
  slices_S16x3x256_o0_0_0_S16x1x256 : S16x3x256.Slices ![0, 0, 0] S16x1x256
  shapeCasts_S16x1x256_S16x256 : S16x1x256.ShapeCasts S16x256
  shapeCasts_S16x1024_S16x1024x1 : S16x1024.ShapeCasts S16x1024x1
  shapeCasts_S16x256_S16x1x256 : S16x256.ShapeCasts S16x1x256
  broadcasts_S16x1024x1_S16x1024x256 : S16x1024x1.Broadcasts S16x1024x256
  broadcasts_S16x1x256_S16x1024x256 : S16x1x256.Broadcasts S16x1024x256
  slices_S16x3x1024_o0_1_0_S16x1x1024 : S16x3x1024.Slices ![0, 1, 0] S16x1x1024
  slices_S16x3x256_o0_1_0_S16x1x256 : S16x3x256.Slices ![0, 1, 0] S16x1x256
  slices_S16x3x1024_o0_2_0_S16x1x1024 : S16x3x1024.Slices ![0, 2, 0] S16x1x1024
  slices_S16x3x256_o0_2_0_S16x1x256 : S16x3x256.Slices ![0, 2, 0] S16x1x256
  reduces_S16x1024x256_S16x256 : S16x1024x256.Reduces [1] S16x256
  inb_S16x256_S16x256_0_0 : ∀ a, (![0, 0] : Fin 2 → Nat) a + S16x256.size a ≤ S16x256.size a
  h_S16x256 : 0 < S16x256.numel
  reducesTo_S16x16384_S_d0_1 : S16x16384.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x3x1024.size a ≤ S16x3x1024.size a
  hwx0_0 : ∀ i : grid0.Coords, EltTy.bits .f32 = 32 ∨ (Rect.block (s := S16x3x1024) S16x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x256.size a ≤ S16x3x16384.size a
  hwx0_1 : ∀ i : grid0.Coords, EltTy.bits .f32 = 32 ∨ (Rect.block (s := S16x3x16384) S16x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x16384.size a
  hwx0_2 : ∀ i : grid0.Coords, EltTy.bits .f32 = 32 ∨ (Rect.block (s := S16x16384) S16x256.size (cc0_transform_2 i) (hinb0_2 i)).WholeWords (EltTy.packing .f32)

variable [Facts₀]

abbrev win0_0 : Pipeline.Window sig grid0 :=
  Pipeline.Window.ofSpec (Memref.whole main_v2) S16x3x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x3 : Shape := ⟨3, ![8, 1024, 3]⟩
abbrev S8x16384x3 : Shape := ⟨3, ![8, 16384, 3]⟩
abbrev S_ : Shape := ⟨0, ![]⟩
abbrev S8x1024 : Shape := ⟨2, ![8, 1024]⟩
abbrev S8x1024x1 : Shape := ⟨3, ![8, 1024, 1]⟩
abbrev S8x16384 : Shape := ⟨2, ![8, 16384]⟩
abbrev S8x1x16384 : Shape := ⟨3, ![8, 1, 16384]⟩
abbrev S8x1024x16384 : Shape := ⟨3, ![8, 1024, 16384]⟩

abbrev nBuf : Space → Nat
  | .hbm => 59
  | .vmem => 0
  | .smem => 0
  | _ => 0

abbrev bufTy : (tb : Table) → Fin (tcTables nBuf tb) → BufTy
  | .hbm, ⟨0, _⟩ => ⟨S8x1024x3, .f32⟩
  | .hbm, ⟨1, _⟩ => ⟨S8x16384x3, .f32⟩
  | .hbm, ⟨2, _⟩ => ⟨S8x1024x3, .f32⟩
  | .hbm, ⟨3, _⟩ => ⟨S8x16384x3, .f32⟩
  | .hbm, ⟨4, _⟩ => ⟨S8x1024x3, .f32⟩
  | .hbm, ⟨5, _⟩ => ⟨S_, .f32⟩
  | .hbm, ⟨6, _⟩ => ⟨S8x1024, .f32⟩
  | .hbm, ⟨7, _⟩ => ⟨S8x1024x1, .f32⟩
  | .hbm, ⟨8, _⟩ => ⟨S8x16384x3, .f32⟩
  | .hbm, ⟨9, _⟩ => ⟨S_, .f32⟩
  | .hbm, ⟨10, _⟩ => ⟨S8x16384, .f32⟩
  | .hbm, ⟨11, _⟩ => ⟨S8x1x16384, .f32⟩
  | .hbm, ⟨12, _⟩ => ⟨S8x1024x16384, .f32⟩
  | .hbm, ⟨13, _⟩ => ⟨S8x1024x16384, .f32⟩
  | .hbm, ⟨14, _⟩ => ⟨S8x1024x16384, .f32⟩
  | .hbm, ⟨15, _⟩ => ⟨S8x1024x16384, .f32⟩
  | .hbm, ⟨16, _⟩ => ⟨S_, .f32⟩
  | .hbm, ⟨17, _⟩ => ⟨S8x1024x16384, .f32⟩
  | .hbm, ⟨18, _⟩ => ⟨S8x1024x16384, .f32⟩
  | .hbm, ⟨19, _⟩ => ⟨S8x1024x16384, .f32⟩
  | .hbm, ⟨20, _⟩ => ⟨S_, .f32⟩
  | .hbm, ⟨21, _⟩ => ⟨S8x1024x16384, .f32⟩
  | .hbm, ⟨22, _⟩ => ⟨S8x1024x16384, .f32⟩
  | .hbm, ⟨23, _⟩ => ⟨S8x1024x16384, .f32⟩
  | .hbm, ⟨24, _⟩ => ⟨S_, .f32⟩
  | .hbm, ⟨25, _⟩ => ⟨S8x16384, .f32⟩
  | .hbm, ⟨26, _⟩ => ⟨S8x1024x3, .f32⟩
  | .hbm, ⟨27, _⟩ => ⟨S_, .f32⟩
  | .hbm, ⟨28, _⟩ => ⟨S8x1024, .f32⟩
  | .hbm, ⟨29, _⟩ => ⟨S8x1024x1, .f32⟩
  | .hbm, ⟨30, _⟩ => ⟨S8x16384x3, .f32⟩
  | .hbm, ⟨31, _⟩ => ⟨S_, .f32⟩
  | .hbm, ⟨32, _⟩ => ⟨S8x16384, .f32⟩
  | .hbm, ⟨33, _⟩ => ⟨S8x1x16384, .f32⟩
  | .hbm, ⟨34, _⟩ => ⟨S8x1024x16384, .f32⟩
  | .hbm, ⟨35, _⟩ => ⟨S8x1024x16384, .f32⟩
  | .hbm, ⟨36, _⟩ => ⟨S8x1024x16384, .f32⟩
  | .hbm, ⟨37, _⟩ => ⟨S8x1024x16384, .f32⟩
  | .hbm, ⟨38, _⟩ => ⟨S_, .f32⟩
  | .hbm, ⟨39, _⟩ => ⟨S8x1024x16384, .f32⟩
  | .hbm, ⟨40, _⟩ => ⟨S8x1024x16384, .f32⟩
  | .hbm, ⟨41, _⟩ => ⟨S8x1024x16384, .f32⟩
  | .hbm, ⟨42, _⟩ => ⟨S_, .f32⟩
  | .hbm, ⟨43, _⟩ => ⟨S8x1024x16384, .f32⟩
  | .hbm, ⟨44, _⟩ => ⟨S8x1024x16384, .f32⟩
  | .hbm, ⟨45, _⟩ => ⟨S8x1024x16384, .f32⟩
  | .hbm, ⟨46, _⟩ => ⟨S_, .f32⟩
  | .hbm, ⟨47, _⟩ => ⟨S8x16384, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S8x1024x3_S8x1024_d2 : S8x1024x3.ReducesTo [2] S8x1024
  h_S_ : 0 < S_.numel
  bcast_S8x1024_S8x1024x1_0_1 : S8x1024.BroadcastsInDim S8x1024x1 (![0, 1] : Fin 2 → Fin S8x1024x1.rank)
  reducesTo_S8x16384x3_S8x16384_d2 : S8x16384x3.ReducesTo [2] S8x16384
  bcast_S8x16384_S8x1x16384_0_2 : S8x16384.BroadcastsInDim S8x1x16384 (![0, 2] : Fin 2 → Fin S8x1x16384.rank)
  bcast_S8x1024x1_S8x1024x16384_0_1_2 : S8x1024x1.BroadcastsInDim S8x1024x16384 (![0, 1, 2] : Fin 3 → Fin S8x1024x16384.rank)
  bcast_S8x1x16384_S8x1024x16384_0_1_2 : S8x1x16384.BroadcastsInDim S8x1024x16384 (![0, 1, 2] : Fin 3 → Fin S8x1024x16384.rank)
  bcast_S_S8x1024x16384 : S_.BroadcastsInDim S8x1024x16384 (![] : Fin 0 → Fin S8x1024x16384.rank)
  reducesTo_S8x1024x16384_S8x16384_d1 : S8x1024x16384.ReducesTo [1] S8x16384
  reducesTo_S8x16384_S_d0_1 : S8x16384.ReducesTo [0, 1] S_
  dot_S8x1024x3_S8x16384x3_S8x1024x16384_2_2_1_1_0_0_wf : DotDims.WF S8x1024x3 S8x16384x3 S8x1024x16384 [2] [2] [1] [1] [0] [0]

variable [Facts₀]

def dot_S8x1024x3_S8x16384x3_S8x1024x16384_2_2_1_1_0_0 : DotDims S8x1024x3 S8x16384x3 S8x1024x16384 where
  lhsContracting := [2]
  rhsContracting := [2]
  lhsNonContracting := [1]
  rhsNonContracting := [1]
  lhsBatch := [0]
  rhsBatch := [0]
  wf := dot_S8x1024x3_S8x16384x3_S8x1024x16384_2_2_1_1_0_0_wf

class Facts : Prop extends Facts₀ where

variable [Facts]
-- ==== Proof.LibReadBack.lean ====
/-
  Reading back a buffer that was stored whole, several times.

  A body that keeps an accumulator in a scratch buffer stores the whole buffer, loads it whole, stores it whole
  again, and so on.  What a whole load reads after a list of stores (latest first) whose latest store is the
  whole buffer at zero offsets is that latest store's payload, whatever the earlier stores were: the earlier
  stores are entirely overwritten.
-/
import Idealize.ShloMosaic.Lib.Pipeline.Value

noncomputable section

namespace ReadBack

open Idealize.ShloMosaic

variable {Val : EltTy → Type} {S : Shape} {e : EltTy}

/-- A whole-buffer load, after stores of which the LATEST is a whole-buffer store at zero offsets, reads that
    store's payload: every index lies in the latest piece, so the covering contents are its payload, and a load
    through the whole rectangle reads the contents. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩),
    View.canon_cons_unit_zero rfl, View.ld_unit_zero rfl]

end ReadBack

end
-- ==== Proof.KPiece.lean ====
/-
  What the kernel body leaves in the output's staging buffer at one grid point.

  The body keeps the squared distances in a scratch buffer: it stores zeros, then three times loads the buffer,
  adds one coordinate's squared difference and stores it back; finally it loads the buffer, takes the minimum
  over the node axis, clamps at zero, takes the square root and stores the result block.  Every store and load is
  of the whole buffer, so each load reads exactly what the store before it wrote, and the stored result block is
  one pure term of the two input blocks: the nest of the body's arithmetic steps below.
-/
import proofs.«136668_j2370821948146_2_alg».proof.Proof.Gen.KernelIdeal.Frame
import proofs.«136668_j2370821948146_2_alg».proof.Proof.LibReadBack
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the three coordinates: zeros, plus the squared differences of coordinates 0, 1, 2 in
    that order, as a function of the node block `x0` and the points block `x1`. -/
def acc (x0 : Vec F S16x3x1024 .f32) (x1 : Vec F S16x3x256 .f32) : Vec F S16x1024x256 .f32 :=
  k0_pay2 (k0_pay4 x0) (k0_pay5 x1) (k0_pay1 (k0_pay8 x0 x1 (k0_pay7 x0 x1 (k0_pay6 (F := F)))))

/-- The result block: the minimum over the node axis of the accumulator, clamped at zero, square-rooted. -/
def body (x0 : Vec F S16x3x1024 .f32) (x1 : Vec F S16x3x256 .f32) : Vec F S16x256 .f32 :=
  k0_pay3 (acc x0 x1)

/-- On any whole staging buffers, with the inputs holding `x0` and `x1`, the body leaves `body x0 x1` in the
    output's buffer: its one covering store's payload, each scratch load reading the store before it. -/
theorem out_eq (c : Dev nD) (i : grid0.Coords) (a1 : Memref sig .tc .vmem S16x3x1024 .f32) (h1 : a1.IsWhole)
    (a2 : Memref sig .tc .vmem S16x3x256 .f32) (h2 : a2.IsWhole) (a3 : Memref sig .tc .vmem S16x256 .f32) (h3 : a3.IsWhole)
    (a4 : Memref sig .tc .vmem S16x1024x256 .f32) (h4 : a4.IsWhole)
    (x0 : Vec F S16x3x1024 .f32) (x1 : Vec F S16x3x256 .f32) :
    out0_A_2 c i a1 h1 a2 h2 a3 h3 a4 h4 x0 x1 = body x0 x1 := by
  unfold out0_A_2
  rw [View.read_writes_eq_canon _ _ _ (cover0_A_2 c i a1 h1 a2 h2 a3 h3 a4 h4 x0 x1)]
  unfold kernelRun0_A
  dsimp only
  sl_unfold_words
  rw [View.canon_unit_zero hz2]
  simp only [ReadBack.readCov_cons_unit_zero (S := S16x1024x256) _ hz3, View.readCov_unit_zero (S := S16x1024x256) _ hz3,
    View.readAt_eq_ld, h1.read_unread, h2.read_unread,
    View.ld_unit_zero (S := S16x3x1024) hz3, View.ld_unit_zero (S := S16x3x256) hz3]
  rfl

end Cert.KernelIdeal.KVal

end
-- ==== Proof.KBlocks.lean ====
/-
  From blocks to the array: what the kernel's result array holds after the run.

  The grid has 64 points.  At point t the node window's block is the whole node array [16,3,1024] (its block index
  never moves), the points window's block is columns 256t … 256t+255 of the points array [16,3,16384], and the
  output window's block is columns 256t … 256t+255 of the result array [16,16384], written back at every point.
  So column n of the result is written by point n / 256, at block column n % 256, and the whole array ends holding
  ONE function of the two arrays the region finds: the body's result block of the whole node array and the
  covering tile of the points array, read at the block-local index.
-/
import proofs.«136668_j2370821948146_2_alg».proof.Proof.KPiece
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-- The printed index maps, decided once over the grid: the node window stays at block (0,0,0); the points window
    is at block (0,0,t); the output window at block (0,t). -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-- Tile k of the points array: its columns 256k … 256k+255. -/
def tile (P : S16x3x16384.Idx → Elt F .f32) (k : Fin 64) : Vec F S16x3x256 .f32 := fun y =>
  P (fun a => match a with
    | ⟨0, _⟩ => ⟨(y 0).val, (y 0).isLt⟩
    | ⟨1, _⟩ => ⟨(y 1).val, (y 1).isLt⟩
    | ⟨2, _⟩ => ⟨256 * k.val + (y 2).val, by
        have h2 : (y 2).val < 256 := (y 2).isLt
        have hk := k.isLt
        show 256 * k.val + (y 2).val < 16384
        omega⟩)

/-- The result array as one function of the node array N and the points array P: column n is written by the point
    n / 256, at block column n % 256. -/
def G (N : S16x3x1024.Idx → Elt F .f32) (P : S16x3x16384.Idx → Elt F .f32) : S16x16384.Idx → Elt F .f32 := fun j =>
  body N (tile P ⟨(j 1).val / 256, by
      have h1 : (j 1).val < 16384 := (j 1).isLt
      omega⟩)
    (fun a => match a with
      | ⟨0, _⟩ => ⟨(j 0).val, (j 0).isLt⟩
      | ⟨1, _⟩ => ⟨(j 1).val % 256, by show (j 1).val % 256 < 256; omega⟩)

theorem lt64 (t : Fin cfg0.N) : t.val < 64 := lt_of_lt_of_eq t.isLt N_0

/-- The node window's block at any point is the whole node array. -/
theorem iblk0_eq (c : Dev nD) (t : Fin cfg0.N) : (iblk m c 0 t : Vec F S16x3x1024 .f32) = V m c main_v2 := by
  obtain ⟨e0, e1, e2, -⟩ := idx_facts t
  funext y
  unfold iblk
  rw [View.read_apply]
  show V m c main_v2 _ = V m c main_v2 y
  congr 1
  funext a
  apply Fin.ext
  match a with
  | ⟨0, _⟩ => show win0_0.index t 0 * 16 + 1 * (y 0).val = (y 0).val; rw [e0]; omega
  | ⟨1, _⟩ => show win0_0.index t 1 * 3 + 1 * (y 1).val = (y 1).val; rw [e1]; omega
  | ⟨2, _⟩ => show win0_0.index t 2 * 1024 + 1 * (y 2).val = (y 2).val; rw [e2]; omega

/-- The points window's block at point t is tile t of the points array. -/
theorem iblk1_eq (c : Dev nD) (t : Fin cfg0.N) :
    (iblk m c 1 t : Vec F S16x3x256 .f32) = tile (V m c main_v3) ⟨t.val, lt64 t⟩ := by
  obtain ⟨-, -, -, e0, e1, e2, -⟩ := idx_facts t
  funext y
  unfold iblk tile
  rw [View.read_apply]
  show V m c main_v3 _ = V m c main_v3 _
  congr 1
  funext a
  apply Fin.ext
  match a with
  | ⟨0, _⟩ => show win0_1.index t 0 * 16 + 1 * (y 0).val = (y 0).val; rw [e0]; omega
  | ⟨1, _⟩ => show win0_1.index t 1 * 3 + 1 * (y 1).val = (y 1).val; rw [e1]; omega
  | ⟨2, _⟩ => show win0_1.index t 2 * 256 + 1 * (y 2).val = 256 * t.val + (y 2).val; rw [e2]; omega

/-- WHAT POINT t WRITES BACK is block t of G of the two arrays as the region finds them: the body's result block of
    the node array and tile t, and an index of block t is column 256t + q, whose covering point is t and whose block
    column is q. -/
theorem flushed_eq (c : Dev nD) (t : Fin cfg0.N) :
    (dats m 0 c).flushed 2 t = ((cfg0.win 2).blk t).view.read (Elt F) (G (V m c main_v2) (V m c main_v3)) := by
  show (cfg0.win 2).cut (grid0.coords t) ((dats m 0 c).after 2 t) = _
  rw [after0_2]
  unfold outsAt0
  rw [out_eq, iblk0_eq, iblk1_eq]
  obtain ⟨-, -, -, -, -, -, e0, e1⟩ := idx_facts t
  have h64 := lt64 t
  funext y
  have hy0 : (y 0).val < 16 := (y 0).isLt
  have hy1 : (y 1).val < 256 := (y 1).isLt
  show body (V m c main_v2) (tile (V m c main_v3) ⟨t.val, lt64 t⟩) y
    = G (V m c main_v2) (V m c main_v3) (((cfg0.win 2).blk t).view.emb y)
  have c0 : ((((cfg0.win 2).blk t).view.emb y) 0).val = (y 0).val := by
    show win0_2.index t 0 * 16 + 1 * (y 0).val = (y 0).val; rw [e0]; omega
  have c1 : ((((cfg0.win 2).blk t).view.emb y) 1).val = 256 * t.val + (y 1).val := by
    show win0_2.index t 1 * 256 + 1 * (y 1).val = 256 * t.val + (y 1).val; rw [e1]; omega
  unfold G
  have hk : (⟨((((cfg0.win 2).blk t).view.emb y) 1).val / 256, by
      have h1 : ((((cfg0.win 2).blk t).view.emb y) 1).val < 16384 := ((((cfg0.win 2).blk t).view.emb y) 1).isLt
      omega⟩ : Fin 64) = ⟨t.val, lt64 t⟩ := Fin.ext (by show _ / 256 = t.val; rw [c1]; omega)
  rw [hk]
  congr 1
  funext a
  apply Fin.ext
  match a with
  | ⟨0, _⟩ => exact c0.symm
  | ⟨1, _⟩ => show (y 1).val = ((((cfg0.win 2).blk t).view.emb y) 1).val % 256; rw [c1]; omega

/-- An index of the result array is in point t's block iff each coordinate is in the block's range on its axis. -/
theorem mem_blk (t : Fin cfg0.N) (i : S16x16384.Idx) :
    i ∈ ((cfg0.win 2).blk t).view.set ↔ ∀ a : Fin 2, win0_2.index t a * S16x256.size a ≤ (i a).val ∧ (i a).val < win0_2.index t a * S16x256.size a + S16x256.size a := by
  show i ∈ ((View.whole main_v4).slice (win0_2.rect t)).set ↔ _
  rw [View.set_slice_whole, Rect.mem_set_unit]
  exact Iff.rfl

/-- THE RESULT ARRAY after the run is G of the two arrays the region finds: column n lies in the block of the point
    n / 256, and every point writes its block back. -/
theorem final (c : Dev nD) : (dats m 0 c).arrAt 2 cfg0.N = G (V m c main_v2) (V m c main_v3) :=
  (dats m 0 c).arrAt_eq_of_cover 2 (G (V m c main_v2) (V m c main_v3)) (fun t _ => flushed_eq m c t) fun i => by
    have hi0 : (i 0).val < 16 := (i 0).isLt
    have hi1 : (i 1).val < 16384 := (i 1).isLt
    have hN : cfg0.N = 64 := N_0
    let t : Fin cfg0.N := ⟨(i 1).val / 256, by rw [hN]; omega⟩
    obtain ⟨-, -, -, -, -, -, e0, e1⟩ := idx_facts t
    refine ⟨t, flush0_2 t, ?_⟩
    rw [mem_blk]
    intro a
    match a with
    | ⟨0, _⟩ => show win0_2.index t 0 * 16 ≤ (i 0).val ∧ (i 0).val < win0_2.index t 0 * 16 + 16; rw [e0]; omega
    | ⟨1, _⟩ => show win0_2.index t 1 * 256 ≤ (i 1).val ∧ (i 1).val < win0_2.index t 1 * 256 + 256
                have ht : t.val = (i 1).val / 256 := rfl
                rw [e1, ht]; omega

end Cert.KernelIdeal.KVal

end
-- ==== Proof.KTail.lean ====
/-
  The kernel's run, read: its scalar result as a function of the argument arrays.

  Before the region the host stacks the two node arrays on the batch axis and transposes the last two axes, and
  likewise the two points arrays; the region leaves the result array at G of those two arrays; after the region the
  host sums the result array from zero and divides by 262144, the number of its entries.  So the run ends with the
  result buffer at the mean of G of the stacked, transposed arguments, and the arguments as launched.
-/
import proofs.«136668_j2370821948146_2_alg».proof.Proof.KBlocks
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-- The host's mean of a [16,16384] array: its sum from zero, divided by 262144. -/
def mean16 (g : S16x16384.Idx → Elt F .f32) : S_.Idx → Elt F .f32 :=
  Host.divf (Host.reduceAdd g (constant (F := F) S_ .f32 0x00000000#32) reducesTo_S16x16384_S_d0_1 h_S_) (constant (F := F) S_ .f32 0x48800000#32)

/-- Two arrays of eight batches stacked on the batch axis, then the last two axes exchanged: the node array. -/
def stackN (u v : S8x1024x3.Idx → Elt F .f32) : S16x3x1024.Idx → Elt F .f32 :=
  transpose S16x3x1024 [0, 2, 1] (concatenate S16x1024x3 0 [⟨S8x1024x3, u⟩, ⟨S8x1024x3, v⟩] concatenates_S8x1024x3_S8x1024x3_S16x1024x3_d0) transposes_S16x1024x3_S16x3x1024_0_2_1
/-- The same for the points arrays. -/
def stackP (u v : S8x16384x3.Idx → Elt F .f32) : S16x3x16384.Idx → Elt F .f32 :=
  transpose S16x3x16384 [0, 2, 1] (concatenate S16x16384x3 0 [⟨S8x16384x3, u⟩, ⟨S8x16384x3, v⟩] concatenates_S8x16384x3_S8x16384x3_S16x16384x3_d0) transposes_S16x16384x3_S16x3x16384_0_2_1

/-- The node array as the region finds it: the host's stacking and transposition of the two node arguments. -/
theorem V_v2 (c : Dev nD) : (V m c main_v2 : S16x3x1024.Idx → Elt F .f32)
    = stackN (m ((c : Thread nD τ).loc main_arg0)) (m ((c : Thread nD τ).loc main_arg2)) := by
  show StableHlo.after hostOps0 (fun b => m (c, b)) (Proc.devRef .tc main_v2) = _
  after_results
  rfl

/-- The points array as the region finds it. -/
theorem V_v3 (c : Dev nD) : (V m c main_v3 : S16x3x16384.Idx → Elt F .f32)
    = stackP (m ((c : Thread nD τ).loc main_arg1)) (m ((c : Thread nD τ).loc main_arg3)) := by
  show StableHlo.after hostOps0 (fun b => m (c, b)) (Proc.devRef .tc main_v3) = _
  after_results
  rfl

/-- The lines after the region, applied to the result array the region leaves. -/
theorem tail_eq (c : Dev nD) :
    Pipeline.afterTail₀ cfgs (dats m) 0 (V0 m) [hostOps1] c main_v6 = mean16 (G (V m c main_v2) (V m c main_v3)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = G (V m c main_v2) (V m c main_v3) :=
    (Pipeline.withArrays_arr spec0 launch0.win.arr_inj c _ _ 2).trans (final m c)
  rw [e]
  rfl

/-- The run, read: the result buffer at the mean of G of the stacked arguments, the arguments unchanged. -/
theorem run : θ_run defs (onTc (τ := τ) (main (F := F))) ⟨m, fun _ => 0, ρ⟩ fun r => ∀ c : Dev nD,
      r.2.mem ((c : Thread nD τ).loc main_v6)
          = mean16 (G (stackN (m ((c : Thread nD τ).loc main_arg0)) (m ((c : Thread nD τ).loc main_arg2)))
              (stackP (m ((c : Thread nD τ).loc main_arg1)) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(((h c).2 main_v6 (Pipeline.mem_restRefs_of main_v6 (by decide) (by decide))).trans (tail_eq m c)).trans (by rw [V_v2, V_v3]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KVal

end
-- ==== Proof.KPayload.lean ====
/-
  The kernel body's arithmetic read at an index, where a float is an extended real.

  The accumulator is built in three rounds, one per coordinate c = 0, 1, 2. A round takes coordinate c of the node block
  [16, 3, 1024] as a column [16, 1024, 1] spread over the 256 points, and coordinate c of the points block [16, 3, 256] as
  a row [16, 1, 256] spread over the 1024 nodes; it subtracts, squares and adds to the accumulator. Each of the slice, the
  two shape casts and the broadcast reads, at an index given by its coordinates, its operand at ONE index, so at
  (b, m, q) a round adds (x0[b, c, m] - x1[b, c, q])². The accumulator starts from the zero splat, and the shape casts
  between equal shapes are the identity.
-/
import proofs.«136668_j2370821948146_2_alg».proof.Proof.KPiece
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

/-! ## Layout operations of rank 3 read at an index given by coordinates -/

section Layout
variable {α : Type}

/-- An `[a, 1, n]` array cast to `[a, n]` reads, at `(i, j)`, the operand at `(i, 0, j)`: the two row-major positions
    are `(i · 1 + 0) · n + j` and `i · n + j`. -/
theorem shapeCast_a1n_an_apply {a n : ℕ} (x : (⟨3, ![a, 1, n]⟩ : Shape).Idx → α)
    (h : (⟨3, ![a, 1, n]⟩ : Shape).ShapeCasts ⟨2, ![a, n]⟩) (i : Fin a) (j : Fin n) :
    shapeCast ⟨2, ![a, n]⟩ x h (ix2 i j) = x (ix3 i (0 : Fin 1) j) :=
  shapeCast_apply x h _ _ (by
    rw [Shape.rowMajor_val_three, Shape.rowMajor_val_two]
    show (i.val * 1 + 0) * n + j.val = i.val * n + j.val
    rw [Nat.mul_one, Nat.add_zero])

/-- An `[a, n]` array cast to `[a, n, 1]` reads, at `(i, j, u)`, the operand at `(i, j)`: the unit coordinate is 0. -/
theorem shapeCast_an_an1_apply {a n : ℕ} (x : (⟨2, ![a, n]⟩ : Shape).Idx → α)
    (h : (⟨2, ![a, n]⟩ : Shape).ShapeCasts ⟨3, ![a, n, 1]⟩) (i : Fin a) (j : Fin n) (u : Fin 1) :
    shapeCast ⟨3, ![a, n, 1]⟩ x h (ix3 i j u) = x (ix2 i j) :=
  shapeCast_apply x h _ _ (by
    have hu : u.val = 0 := by omega
    rw [Shape.rowMajor_val_three, Shape.rowMajor_val_two]
    show i.val * n + j.val = (i.val * n + j.val) * 1 + u.val
    rw [hu, Nat.mul_one, Nat.add_zero])

/-- An `[a, n]` array cast to `[a, 1, n]` reads, at `(i, u, j)`, the operand at `(i, j)`: the unit coordinate is 0. -/
theorem shapeCast_an_a1n_apply {a n : ℕ} (x : (⟨2, ![a, n]⟩ : Shape).Idx → α)
    (h : (⟨2, ![a, n]⟩ : Shape).ShapeCasts ⟨3, ![a, 1, n]⟩) (i : Fin a) (u : Fin 1) (j : Fin n) :
    shapeCast ⟨3, ![a, 1, n]⟩ x h (ix3 i u j) = x (ix2 i j) :=
  shapeCast_apply x h _ _ (by
    have hu : u.val = 0 := by omega
    rw [Shape.rowMajor_val_three, Shape.rowMajor_val_two]
    show i.val * n + j.val = (i.val * 1 + u.val) * n + j.val
    rw [hu, Nat.mul_one, Nat.add_zero])

/-- An `[a, n, 1]` array broadcast to `[a, n, m]` reads, at `(i, j, k)`, the operand's one entry `(i, j, 0)` of that
    column. (Where an extent `a` or `n` is itself 1 its coordinate is 0 anyway.) -/
theorem broadcastTo_an1_anm_apply {a n m : ℕ} (v : (⟨3, ![a, n, 1]⟩ : Shape).Idx → α)
    (h : (⟨3, ![a, n, 1]⟩ : Shape).Broadcasts ⟨3, ![a, n, m]⟩) (i : Fin a) (j : Fin n) (k : Fin m) :
    broadcastTo ⟨3, ![a, n, m]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if n = 1 then 0 else j.val
    split
    · have := j.isLt; omega
    · rfl
  | ⟨2, _⟩ => rfl

/-- An `[a, 1, m]` array broadcast to `[a, n, m]` reads, at `(i, j, k)`, the operand's one row at `(i, 0, k)`. -/
theorem broadcastTo_a1m_anm_apply {a n m : ℕ} (v : (⟨3, ![a, 1, m]⟩ : Shape).Idx → α)
    (h : (⟨3, ![a, 1, m]⟩ : Shape).Broadcasts ⟨3, ![a, n, m]⟩) (i : Fin a) (j : Fin n) (k : Fin m) :
    broadcastTo ⟨3, ![a, n, m]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if m = 1 then 0 else k.val
    split
    · have := k.isLt; omega
    · rfl

/-- The node side of a round: coordinate `c` of the node block, sliced out at offset `o = c`, cast to a column and spread
    over the points, reads at `(b, m, q)` the node block at `(b, c, m)`. -/
theorem node_apply (o : ℕ) (v1 : S16x3x1024.Idx → α) (hs : S16x3x1024.Slices ![0, o, 0] S16x1x1024)
    (hc : S16x1x1024.ShapeCasts S16x1024) (hc' : S16x1024.ShapeCasts S16x1024x1) (hb : S16x1024x1.Broadcasts S16x1024x256)
    (c : Fin 3) (hco : c.val = o) (b : Fin 16) (m : Fin 1024) (q : Fin 256) :
    broadcastTo S16x1024x256 (shapeCast S16x1024x1 (shapeCast S16x1024 (extractStridedSlice S16x1x1024 ![0, o, 0] v1 hs) hc) hc') hb
        (ix3 b m q) = v1 (ix3 b c m) :=
  (broadcastTo_an1_anm_apply _ hb b m q).trans
    ((shapeCast_an_an1_apply _ hc' b m 0).trans
      ((shapeCast_a1n_an_apply _ hc b m).trans
        (slice3_axis1_apply o v1 hs b 0 m c (by rw [hco]; rfl))))

/-- The point side of a round: coordinate `c` of the points block, sliced out at offset `o = c`, cast to a row and spread
    over the nodes, reads at `(b, m, q)` the points block at `(b, c, q)`. -/
theorem point_apply (o : ℕ) (v3 : S16x3x256.Idx → α) (hs : S16x3x256.Slices ![0, o, 0] S16x1x256)
    (hc : S16x1x256.ShapeCasts S16x256) (hc' : S16x256.ShapeCasts S16x1x256) (hb : S16x1x256.Broadcasts S16x1024x256)
    (c : Fin 3) (hco : c.val = o) (b : Fin 16) (m : Fin 1024) (q : Fin 256) :
    broadcastTo S16x1024x256 (shapeCast S16x1x256 (shapeCast S16x256 (extractStridedSlice S16x1x256 ![0, o, 0] v3 hs) hc) hc') hb
        (ix3 b m q) = v3 (ix3 b c q) :=
  (broadcastTo_a1m_anm_apply _ hb b m q).trans
    ((shapeCast_an_a1n_apply _ hc' b 0 q).trans
      ((shapeCast_a1n_an_apply _ hc b q).trans
        (slice3_axis1_apply o v3 hs b 0 q c (by rw [hco]; rfl))))

end Layout

/-! ## One round, and the payloads -/

/-- The squared difference of coordinate `c` between node `m` and point `q` of batch `b`. -/
def sqd (x0 : S16x3x1024.Idx → EReal) (x1 : S16x3x256.Idx → EReal) (b : Fin 16) (c : Fin 3) (m : Fin 1024) (q : Fin 256) : EReal :=
  (x0 (ix3 b c m) - x1 (ix3 b c q)) * (x0 (ix3 b c m) - x1 (ix3 b c q))

/-- One round, for any slice offset `o` naming coordinate `c`: the accumulator plus the square of (node side minus point
    side), read at `(b, m, q)`, is the accumulator there plus the squared difference of coordinate `c`. -/
theorem round_apply (o : ℕ) (v1 : S16x3x1024.Idx → EReal) (v3 : S16x3x256.Idx → EReal) (av : S16x1024x256.Idx → EReal)
    (hs1 : S16x3x1024.Slices ![0, o, 0] S16x1x1024) (hc1 : S16x1x1024.ShapeCasts S16x1024)
    (hc1' : S16x1024.ShapeCasts S16x1024x1) (hb1 : S16x1024x1.Broadcasts S16x1024x256)
    (hs3 : S16x3x256.Slices ![0, o, 0] S16x1x256) (hc3 : S16x1x256.ShapeCasts S16x256)
    (hc3' : S16x256.ShapeCasts S16x1x256) (hb3 : S16x1x256.Broadcasts S16x1024x256)
    (c : Fin 3) (hco : c.val = o) (b : Fin 16) (m : Fin 1024) (q : Fin 256) :
    addf (F := Ideal) (φ := .f32) av
        (mulf
          (subf
            (broadcastTo S16x1024x256 (shapeCast S16x1024x1 (shapeCast S16x1024 (extractStridedSlice S16x1x1024 ![0, o, 0] v1 hs1) hc1) hc1') hb1)
            (broadcastTo S16x1024x256 (shapeCast S16x1x256 (shapeCast S16x256 (extractStridedSlice S16x1x256 ![0, o, 0] v3 hs3) hc3) hc3') hb3))
          (subf
            (broadcastTo S16x1024x256 (shapeCast S16x1024x1 (shapeCast S16x1024 (extractStridedSlice S16x1x1024 ![0, o, 0] v1 hs1) hc1) hc1') hb1)
            (broadcastTo S16x1024x256 (shapeCast S16x1x256 (shapeCast S16x256 (extractStridedSlice S16x1x256 ![0, o, 0] v3 hs3) hc3) hc3') hb3)))
        (ix3 b m q)
      = av (ix3 b m q) + sqd v1 v3 b c m q := by
  have hN := node_apply o v1 hs1 hc1 hc1' hb1 c hco b m q
  have hP := point_apply o v3 hs3 hc3 hc3' hb3 c hco b m q
  show av (ix3 b m q) + (_ - _) * (_ - _) = _
  rw [hN, hP]
  rfl

/-- The shape casts between equal shapes are the identity: the node block as the rounds read it … -/
theorem pay4_eq (x0 : S16x3x1024.Idx → EReal) : k0_pay4 (F := Ideal) x0 = x0 := shapeCast_self x0 _
/-- … the points block … -/
theorem pay5_eq (x1 : S16x3x256.Idx → EReal) : k0_pay5 (F := Ideal) x1 = x1 := shapeCast_self x1 _
/-- … and the accumulator between the second and the third round. -/
theorem pay1_eq (v : S16x1024x256.Idx → EReal) : k0_pay1 (F := Ideal) v = v := shapeCast_self v _

/-- The accumulator starts from the zero splat. -/
theorem pay6_apply (i : S16x1024x256.Idx) : k0_pay6 (F := Ideal) i = Ideal.ofBits .f32 0x00000000#32 := by
  unfold k0_pay6
  exact congrFun (shapeCast_self _ _) i

/-- The first round adds coordinate 0's squared difference. -/
theorem pay7_apply (x0 : S16x3x1024.Idx → EReal) (x1 : S16x3x256.Idx → EReal) (av : S16x1024x256.Idx → EReal)
    (b : Fin 16) (m : Fin 1024) (q : Fin 256) :
    k0_pay7 (F := Ideal) x0 x1 av (ix3 b m q) = av (ix3 b m q) + sqd x0 x1 b 0 m q := by
  unfold k0_pay7
  refine (congrFun (shapeCast_self _ _) _).trans ?_
  refine (round_apply 0 _ _ av _ _ _ _ _ _ _ _ 0 rfl b m q).trans ?_
  rw [pay4_eq, pay5_eq]

/-- The second round adds coordinate 1's. -/
theorem pay8_apply (x0 : S16x3x1024.Idx → EReal) (x1 : S16x3x256.Idx → EReal) (av : S16x1024x256.Idx → EReal)
    (b : Fin 16) (m : Fin 1024) (q : Fin 256) :
    k0_pay8 (F := Ideal) x0 x1 av (ix3 b m q) = av (ix3 b m q) + sqd x0 x1 b 1 m q := by
  unfold k0_pay8
  refine (round_apply 1 _ _ av _ _ _ _ _ _ _ _ 1 rfl b m q).trans ?_
  rw [pay4_eq, pay5_eq]

/-- The third round adds coordinate 2's; it reads the blocks it is handed. -/
theorem pay2_apply (v1 : S16x3x1024.Idx → EReal) (v3 : S16x3x256.Idx → EReal) (av : S16x1024x256.Idx → EReal)
    (b : Fin 16) (m : Fin 1024) (q : Fin 256) :
    k0_pay2 (F := Ideal) v1 v3 av (ix3 b m q) = av (ix3 b m q) + sqd v1 v3 b 2 m q := by
  unfold k0_pay2
  refine (congrFun (shapeCast_self _ _) _).trans ?_
  exact round_apply 2 v1 v3 av _ _ _ _ _ _ _ _ 2 rfl b m q

/-! ## The accumulator at an index -/

/-- The accumulator at `(b, m, q)`: zero plus the squared differences of coordinates 0, 1, 2, in that order. -/
theorem acc_apply (x0 : S16x3x1024.Idx → EReal) (x1 : S16x3x256.Idx → EReal) (b : Fin 16) (m : Fin 1024) (q : Fin 256) :
    acc (F := Ideal) x0 x1 (ix3 b m q)
      = ((Ideal.ofBits .f32 0x00000000#32 + sqd x0 x1 b 0 m q) + sqd x0 x1 b 1 m q) + sqd x0 x1 b 2 m q := by
  unfold acc
  rw [pay2_apply, pay1_eq, pay8_apply, pay7_apply, pay6_apply, pay4_eq, pay5_eq]

/-! ## The result block at an index -/

/-- A square root at an index is the extended reals' square root of the element. -/
theorem sqrt_apply {s : Shape} {φ : FTy} (a : FVec Ideal s φ) (i : s.Idx) : sqrt a i = Ideal.sqrt (a i) := rfl

/-- The result block at `(b, q)`: the square root of the larger of zero and the minimum over the node axis of the
    accumulator (the reduction is left standing). Each step is a congruence, so that the reduction is never unfolded. -/
theorem body_apply (x0 : S16x3x1024.Idx → EReal) (x1 : S16x3x256.Idx → EReal) (b : Fin 16) (q : Fin 256) :
    body (F := Ideal) x0 x1 (ix2 b q)
      = Ideal.sqrt (max (multiReduction (F := Ideal) (φ := .f32) .minimumf [1] S16x256 (acc (F := Ideal) x0 x1) 0x7F800000#32
          reduces_S16x1024x256_S16x256 (.inl rfl) rfl (ix2 b q)) (Ideal.ofBits .f32 0x00000000#32)) := by
  unfold body k0_pay3
  refine (sqrt_apply _ _).trans (congrArg Ideal.sqrt ?_)
  refine (maximumf_apply _ _ _).trans ?_
  exact congrArg₂ max rfl rfl

end Cert.KernelIdeal.KVal
-- ==== Proof.LibBatchFold.lean ====
/- Two readings at literal shapes, free of any program. (1) The minimum over the middle axis of a
   `16 × 1024 × 256` array of extended reals, read at the result index `(b, q)`: the minimum, from the initial
   value, of the `1024` entries `v (b, m, q)`. (2) A sum over a `16 × 16384` index set is the sum over its first
   eight rows plus the sum over its last eight, each a sum over an `8 × 16384` index set; and a sum over a rank-2
   index set is the double sum over its coordinates. Nothing here enumerates an index set. -/
import Idealize.ShloMosaic.Lib.ValueIdx
import Idealize.ShloMosaic.PureOps.Ideal.Laws
import Idealize.ShloMosaic.PureOps.Reduce

noncomputable section

namespace BatchFold

open Idealize.ShloMosaic Idealize.ShloMosaic.ValueIdx

/-- The shape `16 × 1024 × 256`. -/
abbrev T3 : Shape := ⟨3, ![16, 1024, 256]⟩
/-- The shape `16 × 256`. -/
abbrev T2 : Shape := ⟨2, ![16, 256]⟩
/-- The shape `16 × 16384`. -/
abbrev B16 : Shape := ⟨2, ![16, 16384]⟩
/-- The shape `8 × 16384`. -/
abbrev B8 : Shape := ⟨2, ![8, 16384]⟩

/-! ### The minimum over the middle axis, at an index -/

/-- The index of the `16 × 1024 × 256` array lying over `(b, q)` with coordinate `m` on the dropped middle axis
    is `(b, m, q)`. -/
theorem lift_ix (h : T3.Reduces [1] T2) (b : Fin 16) (q : Fin 256) (m : Fin 1024) :
    h.lift (ix2 b q) m = ix3 b m q := by
  funext c
  match c with
  | ⟨0, _⟩ => rfl
  | ⟨1, _⟩ => rfl
  | ⟨2, _⟩ => rfl

/-- The minimum over the middle axis read at `(b, q)`: `min (init, v (b, 0, q), …, v (b, 1023, q))`. -/
theorem minReduce_apply (v : FVec Ideal T3 .f32) (init : BitVec 32) (h : T3.Reduces [1] T2)
    (h1 : FKind.Formats .f32) (h2 : init = FKind.minimumf.neutral .f32 h1) (b : Fin 16) (q : Fin 256) :
    multiReduction (F := Ideal) .minimumf [1] T2 v init h h1 h2 (ix2 b q)
      = (Finset.univ : Finset (Fin 1024)).fold min (Ideal.ofBits .f32 init) (fun m => v (ix3 b m q)) := by
  rw [multiReduction_minimumf_eq_fold]
  refine (h.fold_filter_drop_single _ _ v (ix2 b q)).trans ?_
  have e : (v ∘ h.lift (ix2 b q)) = fun m : Fin 1024 => v (ix3 b m q) :=
    funext fun m => congrArg v (lift_ix h b q m)
  rw [e]
  rfl

/-- The same at the literal spelling a minimum's reduction has: the initial pattern that of `+inf` and the two
    side conditions the closed proofs `Or.inl rfl` and `rfl`, so that the left side matches such a term as it stands. -/
theorem minReduce_apply_inf (v : FVec Ideal T3 .f32) (h : T3.Reduces [1] T2) (b : Fin 16) (q : Fin 256) :
    multiReduction (F := Ideal) .minimumf [1] T2 v 0x7F800000#32 h (.inl rfl) rfl (ix2 b q)
      = (Finset.univ : Finset (Fin 1024)).fold min (Ideal.ofBits .f32 0x7F800000#32) (fun m => v (ix3 b m q)) :=
  minReduce_apply v _ h _ _ b q

/-! ### Sums over rank-2 index sets, and the split of sixteen rows into eight and eight -/

/-- A sum over the `8 × 16384` index set is the double sum over its coordinates. -/
theorem sum_idx_B8 (g : Fin 8 → Fin 16384 → EReal) :
    ∑ j : B8.Idx, g (j 0) (j 1) = ∑ p : Fin 8, ∑ n : Fin 16384, g p n :=
  sum_idx2 (fun j : B8.Idx => g (j 0) (j 1))

/-- A sum over the `16 × 16384` index set is the double sum over its coordinates. -/
theorem sum_idx_B16 (g : Fin 16 → Fin 16384 → EReal) :
    ∑ i : B16.Idx, g (i 0) (i 1) = ∑ p : Fin 16, ∑ n : Fin 16384, g p n :=
  sum_idx2 (fun i : B16.Idx => g (i 0) (i 1))

/-- A sum over sixteen rows is the sum over the first eight plus the sum over the last eight. -/
theorem sum_split_batch (f : Fin 16 → Fin 16384 → EReal) :
    ∑ i : B16.Idx, f (i 0) (i 1)
      = ∑ j : B8.Idx, f (Fin.castAdd 8 (j 0)) (j 1) + ∑ j : B8.Idx, f (Fin.natAdd 8 (j 0)) (j 1) := by
  have e1 : ∑ j : B8.Idx, f (Fin.castAdd 8 (j 0)) (j 1)
      = ∑ p : Fin 8, ∑ n : Fin 16384, f (Fin.castAdd 8 p) n :=
    sum_idx_B8 (fun p n => f (Fin.castAdd 8 p) n)
  have e2 : ∑ j : B8.Idx, f (Fin.natAdd 8 (j 0)) (j 1)
      = ∑ p : Fin 8, ∑ n : Fin 16384, f (Fin.natAdd 8 p) n :=
    sum_idx_B8 (fun p n => f (Fin.natAdd 8 p) n)
  rw [e1, e2, sum_idx_B16]
  exact Fin.sum_univ_add (fun p : Fin (8 + 8) => ∑ n : Fin 16384, f p n)

end BatchFold

end
-- ==== Proof.LibStack.lean ====
/- Two arrays of shape `8 × M × 3` stacked on the leading axis into `16 × M × 3` and then transposed on the last two
   axes into `16 × 3 × M`, read at an index: entry `(b, c, k)` of the result is the first array's `(b, k, c)` for
   `b < 8` and the second array's `(b - 8, k, c)` for `b ≥ 8`. Stated at `M = 1024` and at `M = 16384`, for entries of any
   type; each coordinate equation is checked on its own, and no index set is enumerated. -/
import Idealize.ShloMosaic.Lib.Pipeline.Value
import Idealize.ShloMosaic.Lib.ValueIdx

noncomputable section

namespace Stack

open Idealize.ShloMosaic Idealize.ShloMosaic.ValueIdx

/-- The shape `8 × 1024 × 3`. -/
abbrev A8 : Shape := ⟨3, ![8, 1024, 3]⟩
/-- The shape `16 × 1024 × 3`. -/
abbrev A16 : Shape := ⟨3, ![16, 1024, 3]⟩
/-- The shape `16 × 3 × 1024`. -/
abbrev At : Shape := ⟨3, ![16, 3, 1024]⟩
/-- The shape `8 × 16384 × 3`. -/
abbrev P8 : Shape := ⟨3, ![8, 16384, 3]⟩
/-- The shape `16 × 16384 × 3`. -/
abbrev P16 : Shape := ⟨3, ![16, 16384, 3]⟩
/-- The shape `16 × 3 × 16384`. -/
abbrev Pt : Shape := ⟨3, ![16, 3, 16384]⟩

/-! ### At `M = 1024` -/

/-- Entry `(p, c, k)`, `p < 8`, of the stacked and transposed `8 × 1024 × 3` arrays is the first array's entry `(p, k, c)`. -/
theorem stackN_low {α : Type} (u v : A8.Idx → α) (hc : Shape.Concatenates [A8, A8] A16 0)
    (ht : A16.Transposes [0, 2, 1] At) (p : Fin 8) (c : Fin 3) (k : Fin 1024) :
    transpose At [0, 2, 1] (concatenate A16 0 [⟨A8, u⟩, ⟨A8, v⟩] hc) ht (ix3 (Fin.castAdd 8 p) c k)
      = u (ix3 p k c) := by
  refine (transpose_apply [0, 2, 1] _ ht (ix3 (Fin.castAdd 8 p) c k) (ix3 (Fin.castAdd 8 p) k c) ?_).trans ?_
  · intro b
    match b with
    | ⟨0, _⟩ => rfl
    | ⟨1, _⟩ => rfl
    | ⟨2, _⟩ => rfl
  · refine concatenate_pair_apply_left 0 u v hc (ix3 (Fin.castAdd 8 p) k c) rfl (ix3 p k c) ?_
    intro b
    match b with
    | ⟨0, _⟩ => rfl
    | ⟨1, _⟩ => rfl
    | ⟨2, _⟩ => rfl

/-- Entry `(8 + p, c, k)`, `p < 8`, of the stacked and transposed `8 × 1024 × 3` arrays is the second array's entry `(p, k, c)`. -/
theorem stackN_high {α : Type} (u v : A8.Idx → α) (hc : Shape.Concatenates [A8, A8] A16 0)
    (ht : A16.Transposes [0, 2, 1] At) (p : Fin 8) (c : Fin 3) (k : Fin 1024) :
    transpose At [0, 2, 1] (concatenate A16 0 [⟨A8, u⟩, ⟨A8, v⟩] hc) ht (ix3 (Fin.natAdd 8 p) c k)
      = v (ix3 p k c) := by
  refine (transpose_apply [0, 2, 1] _ ht (ix3 (Fin.natAdd 8 p) c k) (ix3 (Fin.natAdd 8 p) k c) ?_).trans ?_
  · intro b
    match b with
    | ⟨0, _⟩ => rfl
    | ⟨1, _⟩ => rfl
    | ⟨2, _⟩ => rfl
  · refine concatenate_pair_apply_right 0 u v hc (ix3 (Fin.natAdd 8 p) k c) rfl rfl (ix3 p k c) ?_ ?_
    · intro b hb
      match b, hb with
      | ⟨0, _⟩, hb => exact absurd rfl hb
      | ⟨1, _⟩, _ => rfl
      | ⟨2, _⟩, _ => rfl
    · show p.val + 8 = 8 + p.val
      exact Nat.add_comm _ _

/-! ### At `M = 16384` -/

/-- Entry `(p, c, k)`, `p < 8`, of the stacked and transposed `8 × 16384 × 3` arrays is the first array's entry `(p, k, c)`. -/
theorem stackP_low {α : Type} (u v : P8.Idx → α) (hc : Shape.Concatenates [P8, P8] P16 0)
    (ht : P16.Transposes [0, 2, 1] Pt) (p : Fin 8) (c : Fin 3) (k : Fin 16384) :
    transpose Pt [0, 2, 1] (concatenate P16 0 [⟨P8, u⟩, ⟨P8, v⟩] hc) ht (ix3 (Fin.castAdd 8 p) c k)
      = u (ix3 p k c) := by
  refine (transpose_apply [0, 2, 1] _ ht (ix3 (Fin.castAdd 8 p) c k) (ix3 (Fin.castAdd 8 p) k c) ?_).trans ?_
  · intro b
    match b with
    | ⟨0, _⟩ => rfl
    | ⟨1, _⟩ => rfl
    | ⟨2, _⟩ => rfl
  · refine concatenate_pair_apply_left 0 u v hc (ix3 (Fin.castAdd 8 p) k c) rfl (ix3 p k c) ?_
    intro b
    match b with
    | ⟨0, _⟩ => rfl
    | ⟨1, _⟩ => rfl
    | ⟨2, _⟩ => rfl

/-- Entry `(8 + p, c, k)`, `p < 8`, of the stacked and transposed `8 × 16384 × 3` arrays is the second array's entry `(p, k, c)`. -/
theorem stackP_high {α : Type} (u v : P8.Idx → α) (hc : Shape.Concatenates [P8, P8] P16 0)
    (ht : P16.Transposes [0, 2, 1] Pt) (p : Fin 8) (c : Fin 3) (k : Fin 16384) :
    transpose Pt [0, 2, 1] (concatenate P16 0 [⟨P8, u⟩, ⟨P8, v⟩] hc) ht (ix3 (Fin.natAdd 8 p) c k)
      = v (ix3 p k c) := by
  refine (transpose_apply [0, 2, 1] _ ht (ix3 (Fin.natAdd 8 p) c k) (ix3 (Fin.natAdd 8 p) k c) ?_).trans ?_
  · intro b
    match b with
    | ⟨0, _⟩ => rfl
    | ⟨1, _⟩ => rfl
    | ⟨2, _⟩ => rfl
  · refine concatenate_pair_apply_right 0 u v hc (ix3 (Fin.natAdd 8 p) k c) rfl rfl (ix3 p k c) ?_ ?_
    · intro b hb
      match b, hb with
      | ⟨0, _⟩, hb => exact absurd rfl hb
      | ⟨1, _⟩, _ => rfl
      | ⟨2, _⟩, _ => rfl
    · show p.val + 8 = 8 + p.val
      exact Nat.add_comm _ _

end Stack

end
-- ==== Proof.RefValue.lean ====
/-
  The reference's scalar result as one closed formula at the ideal instance.

  For a pair of point clouds x : [8,1024,3], y : [8,16384,3] the reference forms, for every batch b, every point m of x
  and every point n of y, the distance sqrt(max((|x_m|² + |y_n|²) - 2 * <x_m, y_n>, 0)) (`cand`), takes for every (b, n)
  the minimum over m from +∞ (`side`), and returns the mean over the two pairs of the means over (b, n) of those minima.
-/
import proofs.«136668_j2370821948146_2_alg».proof.Proof.Gen.ReferenceIdeal.Read
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- One candidate's distance, the reference's spelling. -/
def cand (x : S8x1024x3.Idx → EReal) (y : S8x16384x3.Idx → EReal) (b : Fin 8) (m : Fin 1024) (n : Fin 16384) : EReal :=
  Ideal.sqrt (max (((Ideal.ofBits .f32 0x00000000#32 + ∑ c : Fin 3, x (ix3 b m c) * x (ix3 b m c))
      + (Ideal.ofBits .f32 0x00000000#32 + ∑ c : Fin 3, y (ix3 b n c) * y (ix3 b n c)))
      - Ideal.ofBits .f32 0x40000000#32 * ∑ c : Fin 3, x (ix3 b m c) * y (ix3 b n c)) (Ideal.ofBits .f32 0x00000000#32))

/-- One side's nearest distance: the minimum over the 1024 points of `x`, from +∞. -/
def side (x : S8x1024x3.Idx → EReal) (y : S8x16384x3.Idx → EReal) (b : Fin 8) (n : Fin 16384) : EReal :=
  (Finset.univ : Finset (Fin 1024)).fold min (Ideal.ofBits .f32 0x7F800000#32) (fun m => cand x y b m n)

/-! ## The index functions of the layout operations, by coordinates -/

theorem idx_x2n (b : Fin 8) (m : Fin 1024) (n : Fin 16384) (k : Fin 3) :
    idx_main_v1 (idx_main_v2 (idx_main_v7 (ix3 b m n))) k = ix3 b m k :=
  funext fun a => Fin.ext (by match a with | ⟨0, _⟩ => rfl | ⟨1, _⟩ => rfl | ⟨2, _⟩ => rfl)

theorem idx_y2n (b : Fin 8) (m : Fin 1024) (n : Fin 16384) (k : Fin 3) :
    idx_main_v4 (idx_main_v5 (idx_main_v8 (ix3 b m n))) k = ix3 b n k :=
  funext fun a => Fin.ext (by match a with | ⟨0, _⟩ => rfl | ⟨1, _⟩ => rfl | ⟨2, _⟩ => rfl)

theorem lidx_xy (b : Fin 8) (m : Fin 1024) (n : Fin 16384) (k : Fin 3) :
    lidx_main_v6 (ix3 b m n) k = ix3 b m k :=
  funext fun a => Fin.ext (by match a with | ⟨0, _⟩ => rfl | ⟨1, _⟩ => rfl | ⟨2, _⟩ => rfl)

theorem ridx_xy (b : Fin 8) (m : Fin 1024) (n : Fin 16384) (k : Fin 3) :
    ridx_main_v6 (ix3 b m n) k = ix3 b n k :=
  funext fun a => Fin.ext (by match a with | ⟨0, _⟩ => rfl | ⟨1, _⟩ => rfl | ⟨2, _⟩ => rfl)

/-- The distance array of the first pair at (b, m, n). -/
theorem val_v15_apply (x0 : S8x1024x3.Idx → EReal) (x1 : S8x16384x3.Idx → EReal) (b : Fin 8) (m : Fin 1024) (n : Fin 16384) :
    val_main_v15 (F := Ideal) x0 x1 (ix3 b m n) = cand x0 x1 b m n := by
  unfold cand
  rw [val_main_v15_apply, val_main_v14_apply, val_main_v12_apply, val_main_v13_apply, val_main_cst_2_apply,
    val_main_v9_apply, val_main_v11_apply, val_main_v10_apply, val_main_cst_1_apply, val_main_v6_apply,
    val_main_v7_apply, val_main_v2_apply, val_main_v1_apply, val_main_cst_apply,
    val_main_v8_apply, val_main_v5_apply, val_main_v4_apply, val_main_cst_0_apply]
  simp only [val_main_v0_apply, val_main_v3_apply, idx_x2n, idx_y2n, lidx_xy, ridx_xy,
    Ideal.hostUnary_sqrt_def, Ideal.maximumf_def, Ideal.subf_def, Ideal.addf_def, Ideal.mulf_def, Ideal.ofBits_def]

/-! ## The minimum over the points of `x` -/

/-- The shape fact of the reduction over axis 1, in the form that names the inserted index. -/
theorem reduces_d1 : S8x1024x16384.Reduces [1] S8x16384 := by decide

/-- The index over (b, n) with the coordinate m inserted on the reduced axis is (b, m, n). -/
theorem lift_d1 (b : Fin 8) (n : Fin 16384) (m : Fin 1024) :
    reduces_d1.lift (ix2 b n) m = ix3 b m n :=
  funext fun a => Fin.ext (by match a with | ⟨0, _⟩ => rfl | ⟨1, _⟩ => rfl | ⟨2, _⟩ => rfl)

/-- A minimum-reduction over axis 1 of an [8,1024,16384] array from a scalar initial value, at (b, n): the fold of
    `min` from the initial value over the 1024 coordinates of that axis, in any order. -/
theorem reduce_min_apply (y : S8x1024x16384.Idx → EReal) (init : S_.Idx → EReal) (b : Fin 8) (n : Fin 16384) :
    Host.reduce (FloatOps.minimumf (F := Ideal) (φ := .f32)) y init reducesTo_S8x1024x16384_S8x16384_d1 h_S_ (ix2 b n)
      = (Finset.univ : Finset (Fin 1024)).fold min (init (Shape.Idx.first h_S_)) (fun m => y (ix3 b m n)) := by
  rw [Host.reduce_eq_fold_single (FloatOps.minimumf (F := Ideal) (φ := .f32)) y init
    reducesTo_S8x1024x16384_S8x16384_d1 reduces_d1 h_S_ (ix2 b n)]
  have e : (y ∘ reduces_d1.lift (ix2 b n)) = fun m : Fin 1024 => y (ix3 b m n) :=
    funext fun m => congrArg y (lift_d1 b n m)
  rw [e]
  rfl

theorem val_v16_apply (x0 : S8x1024x3.Idx → EReal) (x1 : S8x16384x3.Idx → EReal) (b : Fin 8) (n : Fin 16384) :
    val_main_v16 (F := Ideal) x0 x1 (ix2 b n) = side x0 x1 b n := by
  unfold val_main_v16 side
  rw [reduce_min_apply, val_main_cst_3_apply, Ideal.ofBits_def]
  simp only [val_v15_apply]

/-! ## The second pair: the same operations under other names -/

theorem idx_x2n' (b : Fin 8) (m : Fin 1024) (n : Fin 16384) (k : Fin 3) :
    idx_main_v18 (idx_main_v19 (idx_main_v24 (ix3 b m n))) k = ix3 b m k :=
  funext fun a => Fin.ext (by match a with | ⟨0, _⟩ => rfl | ⟨1, _⟩ => rfl | ⟨2, _⟩ => rfl)

theorem idx_y2n' (b : Fin 8) (m : Fin 1024) (n : Fin 16384) (k : Fin 3) :
    idx_main_v21 (idx_main_v22 (idx_main_v25 (ix3 b m n))) k = ix3 b n k :=
  funext fun a => Fin.ext (by match a with | ⟨0, _⟩ => rfl | ⟨1, _⟩ => rfl | ⟨2, _⟩ => rfl)

theorem lidx_xy' (b : Fin 8) (m : Fin 1024) (n : Fin 16384) (k : Fin 3) :
    lidx_main_v23 (ix3 b m n) k = ix3 b m k :=
  funext fun a => Fin.ext (by match a with | ⟨0, _⟩ => rfl | ⟨1, _⟩ => rfl | ⟨2, _⟩ => rfl)

theorem ridx_xy' (b : Fin 8) (m : Fin 1024) (n : Fin 16384) (k : Fin 3) :
    ridx_main_v23 (ix3 b m n) k = ix3 b n k :=
  funext fun a => Fin.ext (by match a with | ⟨0, _⟩ => rfl | ⟨1, _⟩ => rfl | ⟨2, _⟩ => rfl)

/-- The distance array of the second pair at (b, m, n). -/
theorem val_v32_apply (x2 : S8x1024x3.Idx → EReal) (x3 : S8x16384x3.Idx → EReal) (b : Fin 8) (m : Fin 1024) (n : Fin 16384) :
    val_main_v32 (F := Ideal) x2 x3 (ix3 b m n) = cand x2 x3 b m n := by
  unfold cand
  rw [val_main_v32_apply, val_main_v31_apply, val_main_v29_apply, val_main_v30_apply, val_main_cst_7_apply,
    val_main_v26_apply, val_main_v28_apply, val_main_v27_apply, val_main_cst_6_apply, val_main_v23_apply,
    val_main_v24_apply, val_main_v19_apply, val_main_v18_apply, val_main_cst_4_apply,
    val_main_v25_apply, val_main_v22_apply, val_main_v21_apply, val_main_cst_5_apply]
  simp only [val_main_v17_apply, val_main_v20_apply, idx_x2n', idx_y2n', lidx_xy', ridx_xy',
    Ideal.hostUnary_sqrt_def, Ideal.maximumf_def, Ideal.subf_def, Ideal.addf_def, Ideal.mulf_def, Ideal.ofBits_def]

theorem val_v33_apply (x2 : S8x1024x3.Idx → EReal) (x3 : S8x16384x3.Idx → EReal) (b : Fin 8) (n : Fin 16384) :
    val_main_v33 (F := Ideal) x2 x3 (ix2 b n) = side x2 x3 b n := by
  unfold val_main_v33 side
  rw [reduce_min_apply, val_main_cst_8_apply, Ideal.ofBits_def]
  simp only [val_v32_apply]

/-! ## The result -/

/-- The reference's scalar: the mean over the two pairs of the means over (b, n) of the nearest distances. -/
theorem result_apply (x0 x2 : S8x1024x3.Idx → EReal) (x1 x3 : S8x16384x3.Idx → EReal) (i : S_.Idx) :
    val_main_v39 (F := Ideal) x0 x1 x2 x3 i
      = Ideal.div (Ideal.div (Ideal.ofBits .f32 0x00000000#32 + ∑ j : S8x16384.Idx, side x0 x1 (j 0) (j 1)) (Ideal.ofBits .f32 0x48000000#32)
          + Ideal.div (Ideal.ofBits .f32 0x00000000#32 + ∑ j : S8x16384.Idx, side x2 x3 (j 0) (j 1)) (Ideal.ofBits .f32 0x48000000#32))
          (Ideal.ofBits .f32 0x40000000#32) := by
  have h16 : ∑ j : S8x16384.Idx, val_main_v16 (F := Ideal) x0 x1 j = ∑ j : S8x16384.Idx, side x0 x1 (j 0) (j 1) :=
    Finset.sum_congr rfl fun j _ => (congrArg (val_main_v16 (F := Ideal) x0 x1) (eq_ix2 j)).trans (val_v16_apply x0 x1 (j 0) (j 1))
  have h33 : ∑ j : S8x16384.Idx, val_main_v33 (F := Ideal) x2 x3 j = ∑ j : S8x16384.Idx, side x2 x3 (j 0) (j 1) :=
    Finset.sum_congr rfl fun j _ => (congrArg (val_main_v33 (F := Ideal) x2 x3) (eq_ix2 j)).trans (val_v33_apply x2 x3 (j 0) (j 1))
  rw [val_main_v39_apply, val_main_v38_apply, val_main_v35_apply, val_main_v37_apply, val_main_v34_apply,
    val_main_v36_apply, val_main_cst_13_apply, val_main_cst_10_apply, val_main_cst_12_apply, val_main_cst_9_apply,
    val_main_cst_11_apply, h16, h33]
  simp only [Ideal.hostDivf_def, Ideal.addf_def, Ideal.ofBits_def]

end Cert.ReferenceIdeal.RefValue

end
-- ==== Proof.LibMinDist.lean ====
/- Extended-real algebra joining two spellings of a nearest-neighbour distance: the squared distance
   accumulated coordinate by coordinate against its expansion `|a|² + |b|² - 2 a·b`; the clamped root
   `t ↦ √(max t 0)` taken after a minimum against the minimum of the clamped roots; the mean of a
   family against the halved sum of the means of its two halves; and the float literals involved.
   No program is mentioned here: every statement is over Mathlib's `EReal` and real-valued families. -/
import Idealize.ShloMosaic.PureOps.Ideal
import Idealize.ShloMosaic.PureOps.Ideal.Laws

noncomputable section

namespace MinDist

open Idealize.ShloMosaic

/-! ### Coercion lemmas -/

/-- The coercion `ℝ → EReal` is monotone. -/
theorem coe_mono : Monotone (fun r : ℝ => (r : EReal)) := fun _ _ h => EReal.coe_le_coe_iff.mpr h

/-- The coercion `ℝ → EReal` commutes with `max`. -/
theorem coe_max (x y : ℝ) : ((max x y : ℝ) : EReal) = max (x : EReal) (y : EReal) :=
  coe_mono.map_max

/-- The coercion `ℝ → EReal` commutes with `min`. -/
theorem coe_min (x y : ℝ) : ((min x y : ℝ) : EReal) = min (x : EReal) (y : EReal) :=
  coe_mono.map_min

/-- The coercion `ℝ → EReal` commutes with a finite sum. -/
theorem coe_sum {ι : Type*} (s : Finset ι) (A : ι → ℝ) :
    ∑ i ∈ s, (A i : EReal) = ((∑ i ∈ s, A i : ℝ) : EReal) := by
  classical
  induction s using Finset.induction_on with
  | empty => simp
  | insert a s ha ih => rw [Finset.sum_insert ha, Finset.sum_insert ha, ih, EReal.coe_add]

/-! ### The clamped root -/

/-- The extended square root is monotone: `⊥` and the negatives go to `⊥`, the non-negatives to their
    roots, `⊤` to `⊤`. -/
theorem sqrt_mono : Monotone Ideal.sqrt := by
  intro x y hxy
  induction x using EReal.rec with
  | bot => exact bot_le
  | top =>
    have hy : y = ⊤ := top_le_iff.mp hxy
    rw [hy]
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- The clamped root `t ↦ √(max t 0)` on the extended reals. -/
def rootClamp (t : EReal) : EReal := Ideal.sqrt (max t 0)

/-- The clamped root is monotone: a composite of the monotone maps `max · 0` and `√`. -/
theorem rootClamp_mono : Monotone rootClamp :=
  fun _ _ h => sqrt_mono (max_le_max h le_rfl)

/-- The clamped root fixes `+∞`. -/
theorem rootClamp_top : rootClamp ⊤ = ⊤ := by
  rw [rootClamp, max_eq_left le_top, Ideal.sqrt_top]

/-- On a real `r` the clamped root is the real `√(max r 0)`. -/
theorem rootClamp_coe (r : ℝ) : rootClamp (r : EReal) = ((Real.sqrt (max r 0) : ℝ) : EReal) := by
  rw [rootClamp, ← EReal.coe_zero, ← coe_max, Ideal.sqrt_coe, if_neg (not_lt.mpr (le_max_right r 0))]

/-! ### A monotone map commutes with a minimum over a finite family -/

/-- A monotone map commutes with the minimum of a finite family folded from an initial value:
    `f (min (init, g i₁, …, g iₙ)) = min (f init, f (g i₁), …, f (g iₙ))`. -/
theorem map_fold_min {ι : Type*} (f : EReal → EReal) (hf : Monotone f) (s : Finset ι) (g : ι → EReal) (init : EReal) :
    f (s.fold min init g) = s.fold min (f init) (fun i => f (g i)) := by
  classical
  induction s using Finset.induction_on with
  | empty => rw [Finset.fold_empty, Finset.fold_empty]
  | insert a s ha ih => rw [Finset.fold_insert ha, Finset.fold_insert ha, hf.map_min, ih]

/-- The minimum from `+∞` of a non-empty finite family of reals is a real. -/
theorem fold_min_top_coe {ι : Type*} (s : Finset ι) (hs : s.Nonempty) (g : ι → ℝ) :
    ∃ r : ℝ, s.fold min (⊤ : EReal) (fun i => (g i : EReal)) = (r : EReal) := by
  classical
  induction s using Finset.induction_on with
  | empty => exact absurd hs (by simp)
  | insert a s ha ih =>
    rw [Finset.fold_insert ha]
    rcases s.eq_empty_or_nonempty with he | hne
    · subst he
      exact ⟨g a, by rw [Finset.fold_empty, min_eq_left le_top]⟩
    · obtain ⟨r, hr⟩ := ih hne
      exact ⟨min (g a) r, by rw [hr, coe_min]⟩

/-! ### The squared distance in three coordinates -/

/-- The squared distance accumulated coordinate by coordinate from zero is the real `∑ (a c - b c)²`. -/
theorem sq_accum (a b : Fin 3 → ℝ) :
    (((0 : EReal) + ((a 0 : EReal) - (b 0 : EReal)) * ((a 0 : EReal) - (b 0 : EReal)))
        + ((a 1 : EReal) - (b 1 : EReal)) * ((a 1 : EReal) - (b 1 : EReal)))
        + ((a 2 : EReal) - (b 2 : EReal)) * ((a 2 : EReal) - (b 2 : EReal))
      = ((∑ c : Fin 3, (a c - b c) ^ 2 : ℝ) : EReal) := by
  have h : (∑ c : Fin 3, (a c - b c) ^ 2 : ℝ)
      = ((0 + (a 0 - b 0) * (a 0 - b 0)) + (a 1 - b 1) * (a 1 - b 1)) + (a 2 - b 2) * (a 2 - b 2) := by
    rw [Fin.sum_univ_three]; ring
  rw [h]
  simp only [EReal.coe_add, EReal.coe_mul, EReal.coe_sub, EReal.coe_zero]

/-- The expansion `(|a|² + |b|²) - 2 (a · b)`, each sum taken from zero, is the real `∑ (a c - b c)²`. -/
theorem sq_expand (a b : Fin 3 → ℝ) :
    (((0 : EReal) + ∑ c : Fin 3, (a c : EReal) * (a c : EReal)) + ((0 : EReal) + ∑ c : Fin 3, (b c : EReal) * (b c : EReal)))
        - ((2 : ℝ) : EReal) * ∑ c : Fin 3, (a c : EReal) * (b c : EReal)
      = ((∑ c : Fin 3, (a c - b c) ^ 2 : ℝ) : EReal) := by
  have h : (∑ c : Fin 3, (a c - b c) ^ 2 : ℝ)
      = ((0 + (a 0 * a 0 + a 1 * a 1 + a 2 * a 2)) + (0 + (b 0 * b 0 + b 1 * b 1 + b 2 * b 2)))
          - 2 * (a 0 * b 0 + a 1 * b 1 + a 2 * b 2) := by
    rw [Fin.sum_univ_three]; ring
  rw [h]
  simp only [Fin.sum_univ_three, EReal.coe_add, EReal.coe_mul, EReal.coe_sub, EReal.coe_zero]

/-! ### The mean of a family against the halved sum of the means of its halves -/

/-- The mean of `2n` reals is half the sum of the means of the first `n` and of the last `n`, at
    `n = 131072`, each sum taken from zero and each quotient the extended reals' division. -/
theorem mean_halves {ι κ : Type*} (s : Finset ι) (t : Finset κ) (A : ι → ℝ) (B : κ → ℝ) :
    Ideal.div ((0 : EReal) + (∑ i ∈ s, (A i : EReal) + ∑ j ∈ t, (B j : EReal))) ((262144 : ℝ) : EReal)
      = Ideal.div (Ideal.div ((0 : EReal) + ∑ i ∈ s, (A i : EReal)) ((131072 : ℝ) : EReal)
          + Ideal.div ((0 : EReal) + ∑ j ∈ t, (B j : EReal)) ((131072 : ℝ) : EReal)) ((2 : ℝ) : EReal) := by
  rw [coe_sum, coe_sum,
    Ideal.div_coe (y := 262144) (by norm_num), Ideal.div_coe (y := 131072) (by norm_num),
    Ideal.div_coe (y := 131072) (by norm_num), Ideal.div_coe (y := 2) (by norm_num),
    ← EReal.coe_zero]
  simp only [← EReal.coe_add, ← EReal.coe_mul]
  rw [EReal.coe_eq_coe_iff]
  ring

/-! ### The float literals -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `131072.0 = 2¹⁷` denotes the real `131072`. -/
theorem ofBits_131072 : Ideal.ofBits .f32 0x48000000#32 = ((131072 : ℝ) : EReal) := by
  simp [Ideal.ofBits, Ideal.ieee, -EReal.coe_mul]; norm_num

/-- The pattern of `262144.0 = 2¹⁸` denotes the real `262144`. -/
theorem ofBits_262144 : Ideal.ofBits .f32 0x48800000#32 = ((262144 : ℝ) : EReal) := by
  simp [Ideal.ofBits, Ideal.ieee, -EReal.coe_mul]; norm_num

/-- The pattern of `+inf` denotes `+∞`. -/
theorem ofBits_inf : Ideal.ofBits .f32 0x7F800000#32 = (⊤ : EReal) := by
  simp [Ideal.ofBits, Ideal.ieee]

end MinDist

end
-- ==== Proof.BridgeCore.lean ====
/-
  The algebraic core joining two spellings of a nearest distance over real point clouds.

  With real coordinates the reference's candidate `cand` is the clamped root of the real squared distance `d2`; the other
  spelling accumulates the squared distance coordinate by coordinate from zero, takes the minimum over the 1024 nodes
  first, and clamps and roots afterwards. The clamped root is monotone and fixes +∞, so it commutes with the minimum, and
  the two spellings agree; the common value is a real.
-/
import proofs.«136668_j2370821948146_2_alg».proof.Proof.RefValue
import proofs.«136668_j2370821948146_2_alg».proof.Proof.LibMinDist

noncomputable section

namespace Cert.ReferenceIdeal.RefValue

open Cert.ReferenceIdeal Cert.ReferenceIdeal.Gen Cert.ReferenceIdeal.Read Idealize.ShloMosaic Idealize.ShloMosaic.ValueIdx

/-- The real squared distance between node `m` and point `n` of batch `b`. -/
def d2 (u : S8x1024x3.Idx → ℝ) (v : S8x16384x3.Idx → ℝ) (b : Fin 8) (m : Fin 1024) (n : Fin 16384) : ℝ :=
  ∑ c : Fin 3, (u (ix3 b m c) - v (ix3 b n c)) ^ 2

/-- On real coordinates a candidate distance is the clamped root of the real squared distance:
    `(|x|² + |y|²) - 2 x·y = ∑ (x c - y c)²`. -/
theorem cand_coe (u : S8x1024x3.Idx → ℝ) (v : S8x16384x3.Idx → ℝ) (b : Fin 8) (m : Fin 1024) (n : Fin 16384) :
    cand (fun i => (u i : EReal)) (fun i => (v i : EReal)) b m n = MinDist.rootClamp ((d2 u v b m n : ℝ) : EReal) := by
  unfold cand MinDist.rootClamp d2
  rw [Ideal.ofBits_zero_f32, MinDist.ofBits_two]
  exact congrArg (fun t => Ideal.sqrt (max t 0))
    (MinDist.sq_expand (fun c => u (ix3 b m c)) (fun c => v (ix3 b n c)))

/-- So the nearest distance is the minimum from +∞ of the clamped roots of the real squared distances. -/
theorem side_coe (u : S8x1024x3.Idx → ℝ) (v : S8x16384x3.Idx → ℝ) (b : Fin 8) (n : Fin 16384) :
    side (fun i => (u i : EReal)) (fun i => (v i : EReal)) b n
      = (Finset.univ : Finset (Fin 1024)).fold min (⊤ : EReal) (fun m => MinDist.rootClamp ((d2 u v b m n : ℝ) : EReal)) := by
  unfold side
  have e : (fun m => cand (fun i => (u i : EReal)) (fun i => (v i : EReal)) b m n)
      = fun m => MinDist.rootClamp ((d2 u v b m n : ℝ) : EReal) := funext fun m => cand_coe u v b m n
  rw [e, MinDist.ofBits_inf]

/-- The nearest distance is a real: a minimum from +∞ over the non-empty family of 1024 real roots. -/
theorem side_real (u : S8x1024x3.Idx → ℝ) (v : S8x16384x3.Idx → ℝ) (b : Fin 8) (n : Fin 16384) :
    ∃ r : ℝ, side (fun i => (u i : EReal)) (fun i => (v i : EReal)) b n = (r : EReal) := by
  rw [side_coe]
  have e : (fun m : Fin 1024 => MinDist.rootClamp ((d2 u v b m n : ℝ) : EReal))
      = fun m => ((Real.sqrt (max (d2 u v b m n) 0) : ℝ) : EReal) := funext fun m => MinDist.rootClamp_coe _
  rw [e]
  exact MinDist.fold_min_top_coe Finset.univ ⟨0, Finset.mem_univ _⟩ (fun m => Real.sqrt (max (d2 u v b m n) 0))

/-- The other spelling, over any family `acc` that is, node by node, the squared distance accumulated coordinate by
    coordinate from the zero pattern: the minimum over the nodes from the +∞ pattern, clamped at the zero pattern and
    rooted, is the nearest distance. -/
theorem kernel_spelling_of (u : S8x1024x3.Idx → ℝ) (v : S8x16384x3.Idx → ℝ) (b : Fin 8) (n : Fin 16384)
    (acc : Fin 1024 → EReal)
    (hacc : ∀ m, acc m =
      ((Ideal.ofBits .f32 0x00000000#32
          + ((u (ix3 b m 0) : EReal) - (v (ix3 b n 0) : EReal)) * ((u (ix3 b m 0) : EReal) - (v (ix3 b n 0) : EReal)))
        + ((u (ix3 b m 1) : EReal) - (v (ix3 b n 1) : EReal)) * ((u (ix3 b m 1) : EReal) - (v (ix3 b n 1) : EReal)))
        + ((u (ix3 b m 2) : EReal) - (v (ix3 b n 2) : EReal)) * ((u (ix3 b m 2) : EReal) - (v (ix3 b n 2) : EReal))) :
    Ideal.sqrt (max ((Finset.univ : Finset (Fin 1024)).fold min (Ideal.ofBits .f32 0x7F800000#32) acc)
        (Ideal.ofBits .f32 0x00000000#32))
      = side (fun i => (u i : EReal)) (fun i => (v i : EReal)) b n := by
  have e : acc = fun m => ((d2 u v b m n : ℝ) : EReal) := funext fun m => by
    rw [hacc m, Ideal.ofBits_zero_f32]
    exact MinDist.sq_accum (fun c => u (ix3 b m c)) (fun c => v (ix3 b n c))
  have h := MinDist.map_fold_min MinDist.rootClamp MinDist.rootClamp_mono (Finset.univ : Finset (Fin 1024))
    (fun m => ((d2 u v b m n : ℝ) : EReal)) ⊤
  rw [MinDist.rootClamp_top] at h
  rw [side_coe, MinDist.ofBits_inf, Ideal.ofBits_zero_f32, e]
  exact h

/-- The other spelling, written out: squares accumulated from the zero pattern, the minimum over the nodes from the +∞
    pattern, the clamp at the zero pattern, the root. -/
theorem kernel_spelling (u : S8x1024x3.Idx → ℝ) (v : S8x16384x3.Idx → ℝ) (b : Fin 8) (n : Fin 16384) :
    Ideal.sqrt (max ((Finset.univ : Finset (Fin 1024)).fold min (Ideal.ofBits .f32 0x7F800000#32) (fun m =>
        ((Ideal.ofBits .f32 0x00000000#32
            + ((u (ix3 b m 0) : EReal) - (v (ix3 b n 0) : EReal)) * ((u (ix3 b m 0) : EReal) - (v (ix3 b n 0) : EReal)))
          + ((u (ix3 b m 1) : EReal) - (v (ix3 b n 1) : EReal)) * ((u (ix3 b m 1) : EReal) - (v (ix3 b n 1) : EReal)))
          + ((u (ix3 b m 2) : EReal) - (v (ix3 b n 2) : EReal)) * ((u (ix3 b m 2) : EReal) - (v (ix3 b n 2) : EReal))))
      (Ideal.ofBits .f32 0x00000000#32))
    = side (fun i => (u i : EReal)) (fun i => (v i : EReal)) b n :=
  kernel_spelling_of u v b n _ (fun _ => rfl)

end Cert.ReferenceIdeal.RefValue

end
-- ==== Proof.Bridge.lean ====
/-
  The two programs compute one number.

  With every argument entry a real: the kernel's result array G at batch b and point n is the root of the clamped
  minimum over the nodes of the accumulated squared differences of the stacked, transposed arrays; for b < 8 the
  stacked arrays are the first pair of arguments and for b ≥ 8 the second pair, so G there is the reference's
  nearest distance of the corresponding side (a monotone map commutes with the minimum; expanding the square is ring
  arithmetic on reals).  The kernel's mean over all 16 × 16384 entries is then the half-sum of the two sides' means
  over 8 × 16384 entries each.
-/
import proofs.«136668_j2370821948146_2_alg».proof.Proof.KTail
import proofs.«136668_j2370821948146_2_alg».proof.Proof.KPayload
import proofs.«136668_j2370821948146_2_alg».proof.Proof.LibBatchFold
import proofs.«136668_j2370821948146_2_alg».proof.Proof.LibStack
import proofs.«136668_j2370821948146_2_alg».proof.Proof.BridgeCore
import proofs.«136668_j2370821948146_2_alg».proof.Proof.LibMinDist

noncomputable section

open Idealize.ShloMosaic Idealize.ShloMosaic.ValueIdx

namespace Cert.KernelIdeal.KVal

open Cert.KernelIdeal Cert.KernelIdeal.Gen
open Cert.ReferenceIdeal.RefValue (cand side d2 side_real kernel_spelling_of result_apply)

/-- The host's mean at the ideal instance: zero plus the sum of every entry, divided by 262144. -/
theorem mean16_apply (g : S16x16384.Idx → EReal) (i : S_.Idx) :
    mean16 (F := Ideal) g i
      = Ideal.div (Ideal.ofBits .f32 0x00000000#32 + ∑ j : S16x16384.Idx, g j) (Ideal.ofBits .f32 0x48800000#32) := by
  unfold mean16
  show FloatOps.hostDivf (Host.reduceAdd g (constant (F := Ideal) S_ .f32 0x00000000#32) reducesTo_S16x16384_S_d0_1 h_S_ i)
      (constant (F := Ideal) S_ .f32 0x48800000#32 i) = _
  simp only [Host.reduceAdd, Ideal.hostReduceAdd_def, Ideal.hostDivf_def]
  rw [Ideal.hostReduceAdd_total reducesTo_S16x16384_S_d0_1 (fun b => b.elim0) g _ i]
  rfl

/-- The covering tile read at the block column: tile n / 256 at column n % 256 is column n of the array. -/
theorem tile_col (P : S16x3x16384.Idx → EReal) (b : Fin 16) (c : Fin 3) (n : Fin 16384) :
    tile (F := Ideal) P ⟨n.val / 256, by have := n.isLt; omega⟩ (ix3 b c ⟨n.val % 256, by omega⟩) = P (ix3 b c n) := by
  unfold tile
  refine congrArg P (funext fun a => ?_)
  match a with
  | ⟨0, _⟩ => rfl
  | ⟨1, _⟩ => rfl
  | ⟨2, _⟩ => exact Fin.ext (by show 256 * (n.val / 256) + n.val % 256 = n.val; omega)

section sides

variable (u0 u2 : S8x1024x3.Idx → ℝ) (u1 u3 : S8x16384x3.Idx → ℝ)

/-- The stacked node array and the stacked points array of real-valued arguments. -/
abbrev NN : S16x3x1024.Idx → EReal := stackN (F := Ideal) (fun j => (u0 j : EReal)) (fun j => (u2 j : EReal))
abbrev PP : S16x3x16384.Idx → EReal := stackP (F := Ideal) (fun j => (u1 j : EReal)) (fun j => (u3 j : EReal))

theorem NN_low (p : Fin 8) (c : Fin 3) (k : Fin 1024) : NN u0 u2 (ix3 (Fin.castAdd 8 p) c k) = (u0 (ix3 p k c) : EReal) :=
  Stack.stackN_low (fun j => (u0 j : EReal)) (fun j => (u2 j : EReal)) _ _ p c k
theorem NN_high (p : Fin 8) (c : Fin 3) (k : Fin 1024) : NN u0 u2 (ix3 (Fin.natAdd 8 p) c k) = (u2 (ix3 p k c) : EReal) :=
  Stack.stackN_high (fun j => (u0 j : EReal)) (fun j => (u2 j : EReal)) _ _ p c k
theorem PP_low (p : Fin 8) (c : Fin 3) (k : Fin 16384) : PP u1 u3 (ix3 (Fin.castAdd 8 p) c k) = (u1 (ix3 p k c) : EReal) :=
  Stack.stackP_low (fun j => (u1 j : EReal)) (fun j => (u3 j : EReal)) _ _ p c k
theorem PP_high (p : Fin 8) (c : Fin 3) (k : Fin 16384) : PP u1 u3 (ix3 (Fin.natAdd 8 p) c k) = (u3 (ix3 p k c) : EReal) :=
  Stack.stackP_high (fun j => (u1 j : EReal)) (fun j => (u3 j : EReal)) _ _ p c k

/-- G at batch b and point n: the body's block of the node array and the covering tile, at block column n % 256. -/
theorem G_apply (N : S16x3x1024.Idx → EReal) (P : S16x3x16384.Idx → EReal) (b : Fin 16) (n : Fin 16384) :
    G (F := Ideal) N P (ix2 b n)
      = body (F := Ideal) N (tile (F := Ideal) P ⟨n.val / 256, by have := n.isLt; omega⟩) (ix2 b ⟨n.val % 256, by omega⟩) := by
  unfold G
  refine congrArg _ (funext fun a => ?_)
  match a with
  | ⟨0, _⟩ => rfl
  | ⟨1, _⟩ => rfl

/-- For a batch of the first eight, G is the reference's nearest distance of the first pair of arguments. -/
theorem G_low (p : Fin 8) (n : Fin 16384) :
    G (F := Ideal) (NN u0 u2) (PP u1 u3) (ix2 (Fin.castAdd 8 p) n)
      = side (fun j => (u0 j : EReal)) (fun j => (u1 j : EReal)) p n := by
  rw [G_apply, body_apply, BatchFold.minReduce_apply_inf]
  refine kernel_spelling_of u0 u1 p n _ (fun m => ?_)
  beta_reduce
  rw [acc_apply]
  unfold sqd
  rw [tile_col, tile_col, tile_col, NN_low, NN_low, NN_low, PP_low, PP_low, PP_low]

/-- For a batch of the last eight, of the second pair. -/
theorem G_high (p : Fin 8) (n : Fin 16384) :
    G (F := Ideal) (NN u0 u2) (PP u1 u3) (ix2 (Fin.natAdd 8 p) n)
      = side (fun j => (u2 j : EReal)) (fun j => (u3 j : EReal)) p n := by
  rw [G_apply, body_apply, BatchFold.minReduce_apply_inf]
  refine kernel_spelling_of u2 u3 p n _ (fun m => ?_)
  beta_reduce
  rw [acc_apply]
  unfold sqd
  rw [tile_col, tile_col, tile_col, NN_high, NN_high, NN_high, PP_high, PP_high, PP_high]

/-- THE BRIDGE: for real-valued arguments the kernel's mean of G is the reference's result. -/
theorem bridge (i : S_.Idx) :
    mean16 (F := Ideal) (G (F := Ideal) (NN u0 u2) (PP u1 u3)) i
      = Cert.ReferenceIdeal.Read.val_main_v39 (F := Ideal) (fun j => (u0 j : EReal)) (fun j => (u1 j : EReal))
          (fun j => (u2 j : EReal)) (fun j => (u3 j : EReal)) i := by
  rw [mean16_apply, result_apply]
  have hsum : ∑ j : S16x16384.Idx, G (F := Ideal) (NN u0 u2) (PP u1 u3) j
      = ∑ j : Cert.ReferenceIdeal.S8x16384.Idx, side (fun j => (u0 j : EReal)) (fun j => (u1 j : EReal)) (j 0) (j 1)
        + ∑ j : Cert.ReferenceIdeal.S8x16384.Idx, side (fun j => (u2 j : EReal)) (fun j => (u3 j : EReal)) (j 0) (j 1) := by
    have hs := BatchFold.sum_split_batch (fun b n => G (F := Ideal) (NN u0 u2) (PP u1 u3) (ix2 b n))
    have h16 : ∑ j : S16x16384.Idx, G (F := Ideal) (NN u0 u2) (PP u1 u3) j
        = ∑ j : BatchFold.B16.Idx, G (F := Ideal) (NN u0 u2) (PP u1 u3) (ix2 (j 0) (j 1)) :=
      Finset.sum_congr rfl (fun j _ => congrArg _ (eq_ix2 j))
    rw [h16, hs]
    exact congrArg₂ (fun a b : EReal => a + b)
      (Finset.sum_congr rfl (fun j _ => G_low u0 u2 u1 u3 (j 0) (j 1)))
      (Finset.sum_congr rfl (fun j _ => G_high u0 u2 u1 u3 (j 0) (j 1)))
  rw [hsum]
  choose rp hrp using fun j : Cert.ReferenceIdeal.S8x16384.Idx => side_real u0 u1 (j 0) (j 1)
  choose ra hra using fun j : Cert.ReferenceIdeal.S8x16384.Idx => side_real u2 u3 (j 0) (j 1)
  rw [Finset.sum_congr rfl (fun j _ => hrp j), Finset.sum_congr rfl (fun j _ => hra j),
    Ideal.ofBits_zero_f32, MinDist.ofBits_262144, MinDist.ofBits_131072, MinDist.ofBits_two]
  exact MinDist.mean_halves Finset.univ Finset.univ rp ra

end sides

end Cert.KernelIdeal.KVal

end
-- ==== Proof.FiniteInputs.lean ====
/-
  The precondition "every float input is finite", read back at the ideal instance.

  The printed predicate is, for each of the four argument arrays, the all-reduce by `and` of the
  element test `|x| < +∞`, and the four results and-ed together. Where a float is an extended real,
  `|x| = max x (-x)` and the pattern `0x7F800000` denotes `⊤`; `max x (-x) < ⊤` fails exactly at
  `x = ⊤` and `x = ⊥` (there `-x = ⊤`), so it says that `x` is a real number. A reduce by `and` into a
  single result that is 1 had a 1 at every operand index, so the predicate being 1 gives that fact at
  every entry of every argument.
-/
import proofs.«136668_j2370821948146_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic

/-- The scalar shape has one index. -/
instance : Subsingleton S_.Idx := ⟨fun a b => funext fun d => d.elim0⟩

/-- The f32 pattern `0x7F800000` (sign 0, exponent all ones, fraction 0) denotes `+∞`. -/
theorem ofBits_inf : Ideal.ofBits .f32 0x7F800000#32 = (⊤ : EReal) := by
  simp [Ideal.ofBits, Ideal.ieee]

/-- The element test: an extended real whose absolute value `max x (-x)` is below `⊤` is a real number.
    At `⊤` the maximum is `⊤`; at `⊥` it is `-⊥ = ⊤`; in both cases `⊤ < ⊤` is false. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One conjunct of the predicate, at any shape: if the all-reduce by `and` of the element tests `|x| < +∞` is 1,
    every entry of `x` is a real number. The reduce is never evaluated: that it is 1 gives each operand
    element by `Host.reduce_andi_all`, and the element read at `i` is the test above by unfolding. -/
theorem all_real {s : Shape} {axes : List (Fin s.rank)} (hb : S_.BroadcastsInDim s (![] : Fin 0 → Fin s.rank))
    (hr : s.ReducesTo axes S_) (hu : 0 < S_.numel) (x : FVec Ideal s .f32) (init : IVec S_ 1)
    (e : Host.reduce IntOp.andi
          (cmpf .olt (Host.absf x) (broadcastInDim s ![] hb (constant (F := Ideal) S_ .f32 0x7F800000#32))) init hr hu
          ValueIdx.ix0 = 1#1) :
    ∀ i, ∃ r : ℝ, x i = (r : EReal) := by
  intro i
  have h := Host.reduce_andi_all _ init hr hu ValueIdx.ix0 e i
  refine real_of_abs_lt_top (x i) ?_
  rw [← ofBits_inf]
  exact h

/-- The precondition at the ideal instance: every entry of each of the four arguments is a real number. -/
theorem real_of_pre (a0 : FVec Ideal S8x1024x3 .f32) (a1 : FVec Ideal S8x16384x3 .f32) (a2 : FVec Ideal S8x1024x3 .f32) (a3 : FVec Ideal S8x16384x3 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the result is ((p0 ∧ p1) ∧ p2) ∧ p3, each pᵢ one all-reduce read at the scalar index
  obtain ⟨h012, h3⟩ := IntOp.andi_eq_one.1 h0
  obtain ⟨h01, h2⟩ := IntOp.andi_eq_one.1 h012
  obtain ⟨h0', h1⟩ := IntOp.andi_eq_one.1 h01
  exact ⟨all_real _ _ _ a0 _ h0', all_real _ _ _ a1 _ h1, all_real _ _ _ a2 _ h2, all_real _ _ _ a3 _ h3⟩

end Cert.Pre_finite_inputs.Finite
-- ==== Proof.lean ====
/-
  The single-side nearest-distance mean: a Pallas kernel against its jnp reference, over the extended reals.

  Both programs take two pairs of point clouds (nodes [8,1024,3], points [8,16384,3]) and return the mean, over
  both pairs, all batches and all points, of the distance from a point to its nearest node.

  The kernel stacks the two pairs on the batch axis, and for a tile of 256 points accumulates the squared distance
  to every node one coordinate at a time from zero, takes the minimum over the nodes, clamps at zero and takes the
  square root; the host averages all 16 × 16384 results.  The reference expands the squared distance as
  |x|² + |y|² − 2 x·y, clamps and roots EVERY candidate, takes the minimum after, and averages the two pairs' means.

  With every input finite these agree exactly: expanding the square is ring arithmetic on reals; t ↦ √(max t 0) is
  monotone, so it commutes with the minimum; and the mean of 2·131072 numbers is the half-sum of the means of the
  two halves.  The ideal pass rewrote nothing, so the idealized kernel is the kernel's own text.

  The modules: KPiece (what the body leaves at a grid point, as one pure term), KPayload (that term at an index),
  KBlocks (from blocks to the result array), KTail (the host lines around the region; the kernel's run), RefValue
  (the reference's result in closed form), LibMinDist / BridgeCore / Bridge (the algebra joining the two),
  FiniteInputs (every entry is a real, from the precondition).
-/
import proofs.«136668_j2370821948146_2_alg».proof.Defs
import proofs.«136668_j2370821948146_2_alg».proof.Proof.Gen.Kernel
import proofs.«136668_j2370821948146_2_alg».proof.Proof.Gen.Kernel.Skeleton
import proofs.«136668_j2370821948146_2_alg».proof.Proof.Gen.Kernel.Launch
import proofs.«136668_j2370821948146_2_alg».proof.Proof.Gen.Kernel.Points
import proofs.«136668_j2370821948146_2_alg».proof.Proof.Gen.Kernel.Frame
import proofs.«136668_j2370821948146_2_alg».proof.Proof.Gen.KernelIdeal
import proofs.«136668_j2370821948146_2_alg».proof.Proof.Gen.KernelIdeal.Skeleton
import proofs.«136668_j2370821948146_2_alg».proof.Proof.Gen.KernelIdeal.Launch
import proofs.«136668_j2370821948146_2_alg».proof.Proof.Gen.KernelIdeal.Points
import proofs.«136668_j2370821948146_2_alg».proof.Proof.Gen.KernelIdeal.Frame
import proofs.«136668_j2370821948146_2_alg».proof.Proof.Gen.ReferenceIdeal
import proofs.«136668_j2370821948146_2_alg».proof.Proof.Gen.ReferenceIdeal.Run
import proofs.«136668_j2370821948146_2_alg».proof.Proof.Gen.ReferenceIdeal.Read
import proofs.«136668_j2370821948146_2_alg».proof.Proof.Gen.Pre_finite_inputs
import proofs.«136668_j2370821948146_2_alg».proof.Proof.KTail
import proofs.«136668_j2370821948146_2_alg».proof.Proof.Bridge
import proofs.«136668_j2370821948146_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- For arrays whose entries are all reals, the reference's result is the kernel's mean of its result array: the bridge,
    with the real witnesses chosen. -/
theorem ref_eq (a0 a2 : Cert.KernelIdeal.S8x1024x3.Idx → EReal) (a1 a3 : Cert.KernelIdeal.S8x16384x3.Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    Cert.ReferenceIdeal.Read.val_main_v39 (F := Ideal) a0 a1 a2 a3
      = Cert.KernelIdeal.KVal.mean16 (F := Ideal) (Cert.KernelIdeal.KVal.G (F := Ideal)
          (Cert.KernelIdeal.KVal.stackN (F := Ideal) a0 a2) (Cert.KernelIdeal.KVal.stackP (F := Ideal) a1 a3)) := by
  choose u0 hu0 using h0
  choose u1 hu1 using h1
  choose u2 hu2 using h2
  choose u3 hu3 using h3
  obtain rfl : a0 = fun j => (u0 j : EReal) := funext hu0
  obtain rfl : a1 = fun j => (u1 j : EReal) := funext hu1
  obtain rfl : a2 = fun j => (u2 j : EReal) := funext hu2
  obtain rfl : a3 = fun j => (u3 j : EReal) := funext hu3
  funext i
  exact (Cert.KernelIdeal.KVal.bridge u0 u2 u1 u3 i).symm

/-- At the ideal instance, from memories agreeing on the arguments, the kernel's result buffer ends at the mean of its
    result array and the reference's at its composed term; the precondition makes every argument entry a real, and
    for real entries the two are one number. -/
theorem algebraic : Cert.algebraic_KernelIdeal_ReferenceIdeal := by
  intro m ρ m' ρ' hpre hagree
  refine ⟨fun c => Cert.KernelIdeal.KVal.mean16 (F := Ideal) (Cert.KernelIdeal.KVal.G (F := Ideal)
      (Cert.KernelIdeal.KVal.stackN (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.KernelIdeal.KVal.stackP (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))),
    Cert.KernelIdeal.KVal.run (F := Ideal) m ρ, ?_⟩
  refine (θ_run Cert.ReferenceIdeal.defs _ _).mono
    (fun _ h c => ⟨((h c).1.trans (Cert.ReferenceIdeal.Read.val_main_v39_eq (F := Ideal) _ _ _ _)).trans ?_, (h c).2⟩)
    (Cert.ReferenceIdeal.Value.run (F := Ideal) m' ρ')
  obtain ⟨h0, h1, h2, h3⟩ := Cert.Pre_finite_inputs.Finite.real_of_pre _ _ _ _ (hpre c)
  rw [(hagree c).1, (hagree c).2.1, (hagree c).2.2.1, (hagree c).2.2.2]
  exact ref_eq _ _ _ _ h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
